-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x256x512 : Shape := ⟨4, ![4, 32, 256, 512]⟩
abbrev S_ : Shape := ⟨0, ![]⟩

class Facts : Prop where
  bcast_S_S4x32x256x512 : S_.BroadcastsInDim S4x32x256x512 (![] : Fin 0 → Fin S4x32x256x512.rank)
  reducesTo_S4x32x256x512_S_d0_1_2_3 : S4x32x256x512.ReducesTo [0, 1, 2, 3] S_
  h_S_ : 0 < S_.numel

variable [Facts]

def fn {F : FTy → Type} [FloatOps F] (main_arg0 : FVec F S4x32x256x512 .f32) : IVec S_ 1 :=
  let main_v0 : FVec F S4x32x256x512 .f32 := Host.absf main_arg0
  let main_cst : FVec F S_ .f32 := constant S_ .f32 0x7F800000#32
  let main_v1 : FVec F S4x32x256x512 .f32 := broadcastInDim S4x32x256x512 ![] bcast_S_S4x32x256x512 main_cst
  let main_v2 : IVec S4x32x256x512 1 := cmpf .olt main_v0 main_v1
  let main_c : IVec S_ 1 := constantI S_ 1 1#1
  let main_v3 : IVec S_ 1 := (fun x v => Host.reduce IntOp.andi x v reducesTo_S4x32x256x512_S_d0_1_2_3 h_S_) main_v2 main_c
  main_v3
-- ==== Kernel.lean ====
abbrev S4x32x256x512 : Shape := ⟨4, ![4, 32, 256, 512]⟩
abbrev S_ : Shape := ⟨0, ![]⟩
abbrev S4x32x258x514 : Shape := ⟨4, ![4, 32, 258, 514]⟩
abbrev S4x8x256x512 : Shape := ⟨4, ![4, 8, 256, 512]⟩
abbrev S1x32x258x514 : Shape := ⟨4, ![1, 32, 258, 514]⟩
abbrev S1x8x256x512 : Shape := ⟨4, ![1, 8, 256, 512]⟩
abbrev S32x258x514 : Shape := ⟨3, ![32, 258, 514]⟩
abbrev S258x514 : Shape := ⟨2, ![258, 514]⟩
abbrev S1x258x514 : Shape := ⟨3, ![1, 258, 514]⟩
abbrev S32x32x512 : Shape := ⟨3, ![32, 32, 512]⟩
abbrev S32x512 : Shape := ⟨2, ![32, 512]⟩
abbrev S1x1x32x512 : Shape := ⟨4, ![1, 1, 32, 512]⟩

abbrev nBuf : Space → Nat
  | .hbm => 5
  | .vmem => 4
  | .smem => 0
  | _ => 0

abbrev bufTy : (tb : Table) → Fin (tcTables nBuf tb) → BufTy
  | .hbm, ⟨0, _⟩ => ⟨S4x32x256x512, .f32⟩
  | .hbm, ⟨1, _⟩ => ⟨S_, .i32⟩
  | .hbm, ⟨2, _⟩ => ⟨S_, .f32⟩
  | .hbm, ⟨3, _⟩ => ⟨S4x32x258x514, .f32⟩
  | .hbm, ⟨4, _⟩ => ⟨S4x8x256x512, .f32⟩
  | .local _ .vmem, ⟨0, _⟩ => ⟨S1x32x258x514, .f32⟩
  | .local _ .vmem, ⟨1, _⟩ => ⟨S1x32x258x514, .f32⟩
  | .local _ .vmem, ⟨2, _⟩ => ⟨S1x8x256x512, .f32⟩
  | .local _ .vmem, ⟨3, _⟩ => ⟨S1x8x256x512, .f32⟩
  | _, _ => ⟨S4x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x258x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S4x32x256x512_S4x32x258x514_000_000_110_110 : S4x32x256x512.Pads (![0, 0, 1, 1] : Fin 4 → Nat) ![0, 0, 1, 1] ![0, 0, 0, 0] S4x32x258x514
  h_S_ : 0 < S_.numel
  inb_S1x32x258x514_S1x32x258x514_0_0_0_0 : ∀ a, (![0, 0, 0, 0] : Fin 4 → Nat) a + S1x32x258x514.size a ≤ S1x32x258x514.size a
  h_S1x32x258x514 : 0 < S1x32x258x514.numel
  shapeCasts_S1x32x258x514_S32x258x514 : S1x32x258x514.ShapeCasts S32x258x514
  reduces_S32x258x514_S258x514 : S32x258x514.Reduces [0] S258x514
  shapeCasts_S258x514_S1x258x514 : S258x514.ShapeCasts S1x258x514
  broadcasts_S1x258x514_S32x258x514 : S1x258x514.Broadcasts S32x258x514
  bitsLt_bf16_f32 : FTy.bits .bf16 < FTy.bits .f32
  slices_S32x258x514_o0_1_1_S32x32x512 : S32x258x514.Slices ![0, 1, 1] S32x32x512
  slices_S32x258x514_o0_0_0_S32x32x512 : S32x258x514.Slices ![0, 0, 0] S32x32x512
  reduces_S32x32x512_S32x512 : S32x32x512.Reduces [0] S32x512
  inb_S1x8x256x512_S1x1x32x512_0_0_0_0 : ∀ a, (![0, 0, 0, 0] : Fin 4 → Nat) a + S1x1x32x512.size a ≤ S1x8x256x512.size a
  h_S1x1x32x512 : 0 < S1x1x32x512.numel
  shapeCasts_S1x1x32x512_S32x512 : S1x1x32x512.ShapeCasts S32x512
  shapeCasts_S32x512_S1x1x32x512 : S32x512.ShapeCasts S1x1x32x512
  slices_S32x258x514_o0_0_1_S32x32x512 : S32x258x514.Slices ![0, 0, 1] S32x32x512
  inb_S1x8x256x512_S1x1x32x512_0_1_0_0 : ∀ a, (![0, 1, 0, 0] : Fin 4 → Nat) a + S1x1x32x512.size a ≤ S1x8x256x512.size a
  slices_S32x258x514_o0_0_2_S32x32x512 : S32x258x514.Slices ![0, 0, 2] S32x32x512
  inb_S1x8x256x512_S1x1x32x512_0_2_0_0 : ∀ a, (![0, 2, 0, 0] : Fin 4 → Nat) a + S1x1x32x512.size a ≤ S1x8x256x512.size a
  slices_S32x258x514_o0_1_0_S32x32x512 : S32x258x514.Slices ![0, 1, 0] S32x32x512
  inb_S1x8x256x512_S1x1x32x512_0_3_0_0 : ∀ a, (![0, 3, 0, 0] : Fin 4 → Nat) a + S1x1x32x512.size a ≤ S1x8x256x512.size a
  slices_S32x258x514_o0_1_2_S32x32x512 : S32x258x514.Slices ![0, 1, 2] S32x32x512
  inb_S1x8x256x512_S1x1x32x512_0_4_0_0 : ∀ a, (![0, 4, 0, 0] : Fin 4 → Nat) a + S1x1x32x512.size a ≤ S1x8x256x512.size a
  slices_S32x258x514_o0_2_0_S32x32x512 : S32x258x514.Slices ![0, 2, 0] S32x32x512
  inb_S1x8x256x512_S1x1x32x512_0_5_0_0 : ∀ a, (![0, 5, 0, 0] : Fin 4 → Nat) a + S1x1x32x512.size a ≤ S1x8x256x512.size a
  slices_S32x258x514_o0_2_1_S32x32x512 : S32x258x514.Slices ![0, 2, 1] S32x32x512
  inb_S1x8x256x512_S1x1x32x512_0_6_0_0 : ∀ a, (![0, 6, 0, 0] : Fin 4 → Nat) a + S1x1x32x512.size a ≤ S1x8x256x512.size a
  slices_S32x258x514_o0_2_2_S32x32x512 : S32x258x514.Slices ![0, 2, 2] S32x32x512
  inb_S1x8x256x512_S1x1x32x512_0_7_0_0 : ∀ a, (![0, 7, 0, 0] : Fin 4 → Nat) a + S1x1x32x512.size a ≤ S1x8x256x512.size a
  slices_S32x258x514_o0_33_1_S32x32x512 : S32x258x514.Slices ![0, 33, 1] S32x32x512
  slices_S32x258x514_o0_32_0_S32x32x512 : S32x258x514.Slices ![0, 32, 0] S32x32x512
  inb_S1x8x256x512_S1x1x32x512_0_0_32_0 : ∀ a, (![0, 0, 32, 0] : Fin 4 → Nat) a + S1x1x32x512.size a ≤ S1x8x256x512.size a
  slices_S32x258x514_o0_32_1_S32x32x512 : S32x258x514.Slices ![0, 32, 1] S32x32x512
  inb_S1x8x256x512_S1x1x32x512_0_1_32_0 : ∀ a, (![0, 1, 32, 0] : Fin 4 → Nat) a + S1x1x32x512.size a ≤ S1x8x256x512.size a
  slices_S32x258x514_o0_32_2_S32x32x512 : S32x258x514.Slices ![0, 32, 2] S32x32x512
  inb_S1x8x256x512_S1x1x32x512_0_2_32_0 : ∀ a, (![0, 2, 32, 0] : Fin 4 → Nat) a + S1x1x32x512.size a ≤ S1x8x256x512.size a
  slices_S32x258x514_o0_33_0_S32x32x512 : S32x258x514.Slices ![0, 33, 0] S32x32x512
  inb_S1x8x256x512_S1x1x32x512_0_3_32_0 : ∀ a, (![0, 3, 32, 0] : Fin 4 → Nat) a + S1x1x32x512.size a ≤ S1x8x256x512.size a
  slices_S32x258x514_o0_33_2_S32x32x512 : S32x258x514.Slices ![0, 33, 2] S32x32x512
  inb_S1x8x256x512_S1x1x32x512_0_4_32_0 : ∀ a, (![0, 4, 32, 0] : Fin 4 → Nat) a + S1x1x32x512.size a ≤ S1x8x256x512.size a
  slices_S32x258x514_o0_34_0_S32x32x512 : S32x258x514.Slices ![0, 34, 0] S32x32x512
  inb_S1x8x256x512_S1x1x32x512_0_5_32_0 : ∀ a, (![0, 5, 32, 0] : Fin 4 → Nat) a + S1x1x32x512.size a ≤ S1x8x256x512.size a
  slices_S32x258x514_o0_34_1_S32x32x512 : S32x258x514.Slices ![0, 34, 1] S32x32x512
  inb_S1x8x256x512_S1x1x32x512_0_6_32_0 : ∀ a, (![0, 6, 32, 0] : Fin 4 → Nat) a + S1x1x32x512.size a ≤ S1x8x256x512.size a
  slices_S32x258x514_o0_34_2_S32x32x512 : S32x258x514.Slices ![0, 34, 2] S32x32x512
  inb_S1x8x256x512_S1x1x32x512_0_7_32_0 : ∀ a, (![0, 7, 32, 0] : Fin 4 → Nat) a + S1x1x32x512.size a ≤ S1x8x256x512.size a
  slices_S32x258x514_o0_65_1_S32x32x512 : S32x258x514.Slices ![0, 65, 1] S32x32x512
  slices_S32x258x514_o0_64_0_S32x32x512 : S32x258x514.Slices ![0, 64, 0] S32x32x512
  inb_S1x8x256x512_S1x1x32x512_0_0_64_0 : ∀ a, (![0, 0, 64, 0] : Fin 4 → Nat) a + S1x1x32x512.size a ≤ S1x8x256x512.size a
  slices_S32x258x514_o0_64_1_S32x32x512 : S32x258x514.Slices ![0, 64, 1] S32x32x512
  inb_S1x8x256x512_S1x1x32x512_0_1_64_0 : ∀ a, (![0, 1, 64, 0] : Fin 4 → Nat) a + S1x1x32x512.size a ≤ S1x8x256x512.size a
  slices_S32x258x514_o0_64_2_S32x32x512 : S32x258x514.Slices ![0, 64, 2] S32x32x512
  inb_S1x8x256x512_S1x1x32x512_0_2_64_0 : ∀ a, (![0, 2, 64, 0] : Fin 4 → Nat) a + S1x1x32x512.size a ≤ S1x8x256x512.size a
  slices_S32x258x514_o0_65_0_S32x32x512 : S32x258x514.Slices ![0, 65, 0] S32x32x512
  inb_S1x8x256x512_S1x1x32x512_0_3_64_0 : ∀ a, (![0, 3, 64, 0] : Fin 4 → Nat) a + S1x1x32x512.size a ≤ S1x8x256x512.size a
  slices_S32x258x514_o0_65_2_S32x32x512 : S32x258x514.Slices ![0, 65, 2] S32x32x512
  inb_S1x8x256x512_S1x1x32x512_0_4_64_0 : ∀ a, (![0, 4, 64, 0] : Fin 4 → Nat) a + S1x1x32x512.size a ≤ S1x8x256x512.size a
  slices_S32x258x514_o0_66_0_S32x32x512 : S32x258x514.Slices ![0, 66, 0] S32x32x512
  inb_S1x8x256x512_S1x1x32x512_0_5_64_0 : ∀ a, (![0, 5, 64, 0] : Fin 4 → Nat) a + S1x1x32x512.size a ≤ S1x8x256x512.size a
  slices_S32x258x514_o0_66_1_S32x32x512 : S32x258x514.Slices ![0, 66, 1] S32x32x512
  inb_S1x8x256x512_S1x1x32x512_0_6_64_0 : ∀ a, (![0, 6, 64, 0] : Fin 4 → Nat) a + S1x1x32x512.size a ≤ S1x8x256x512.size a
  slices_S32x258x514_o0_66_2_S32x32x512 : S32x258x514.Slices ![0, 66, 2] S32x32x512
  inb_S1x8x256x512_S1x1x32x512_0_7_64_0 : ∀ a, (![0, 7, 64, 0] : Fin 4 → Nat) a + S1x1x32x512.size a ≤ S1x8x256x512.size a
  slices_S32x258x514_o0_97_1_S32x32x512 : S32x258x514.Slices ![0, 97, 1] S32x32x512
  slices_S32x258x514_o0_96_0_S32x32x512 : S32x258x514.Slices ![0, 96, 0] S32x32x512
  inb_S1x8x256x512_S1x1x32x512_0_0_96_0 : ∀ a, (![0, 0, 96, 0] : Fin 4 → Nat) a + S1x1x32x512.size a ≤ S1x8x256x512.size a
  slices_S32x258x514_o0_96_1_S32x32x512 : S32x258x514.Slices ![0, 96, 1] S32x32x512
  inb_S1x8x256x512_S1x1x32x512_0_1_96_0 : ∀ a, (![0, 1, 96, 0] : Fin 4 → Nat) a + S1x1x32x512.size a ≤ S1x8x256x512.size a
  slices_S32x258x514_o0_96_2_S32x32x512 : S32x258x514.Slices ![0, 96, 2] S32x32x512
  inb_S1x8x256x512_S1x1x32x512_0_2_96_0 : ∀ a, (![0, 2, 96, 0] : Fin 4 → Nat) a + S1x1x32x512.size a ≤ S1x8x256x512.size a
  slices_S32x258x514_o0_97_0_S32x32x512 : S32x258x514.Slices ![0, 97, 0] S32x32x512
  inb_S1x8x256x512_S1x1x32x512_0_3_96_0 : ∀ a, (![0, 3, 96, 0] : Fin 4 → Nat) a + S1x1x32x512.size a ≤ S1x8x256x512.size a
  slices_S32x258x514_o0_97_2_S32x32x512 : S32x258x514.Slices ![0, 97, 2] S32x32x512
  inb_S1x8x256x512_S1x1x32x512_0_4_96_0 : ∀ a, (![0, 4, 96, 0] : Fin 4 → Nat) a + S1x1x32x512.size a ≤ S1x8x256x512.size a
  slices_S32x258x514_o0_98_0_S32x32x512 : S32x258x514.Slices ![0, 98, 0] S32x32x512
  inb_S1x8x256x512_S1x1x32x512_0_5_96_0 : ∀ a, (![0, 5, 96, 0] : Fin 4 → Nat) a + S1x1x32x512.size a ≤ S1x8x256x512.size a
  slices_S32x258x514_o0_98_1_S32x32x512 : S32x258x514.Slices ![0, 98, 1] S32x32x512
  inb_S1x8x256x512_S1x1x32x512_0_6_96_0 : ∀ a, (![0, 6, 96, 0] : Fin 4 → Nat) a + S1x1x32x512.size a ≤ S1x8x256x512.size a
  slices_S32x258x514_o0_98_2_S32x32x512 : S32x258x514.Slices ![0, 98, 2] S32x32x512
  inb_S1x8x256x512_S1x1x32x512_0_7_96_0 : ∀ a, (![0, 7, 96, 0] : Fin 4 → Nat) a + S1x1x32x512.size a ≤ S1x8x256x512.size a
  slices_S32x258x514_o0_129_1_S32x32x512 : S32x258x514.Slices ![0, 129, 1] S32x32x512
  slices_S32x258x514_o0_128_0_S32x32x512 : S32x258x514.Slices ![0, 128, 0] S32x32x512
  inb_S1x8x256x512_S1x1x32x512_0_0_128_0 : ∀ a, (![0, 0, 128, 0] : Fin 4 → Nat) a + S1x1x32x512.size a ≤ S1x8x256x512.size a
  slices_S32x258x514_o0_128_1_S32x32x512 : S32x258x514.Slices ![0, 128, 1] S32x32x512
  inb_S1x8x256x512_S1x1x32x512_0_1_128_0 : ∀ a, (![0, 1, 128, 0] : Fin 4 → Nat) a + S1x1x32x512.size a ≤ S1x8x256x512.size a
  slices_S32x258x514_o0_128_2_S32x32x512 : S32x258x514.Slices ![0, 128, 2] S32x32x512
  inb_S1x8x256x512_S1x1x32x512_0_2_128_0 : ∀ a, (![0, 2, 128, 0] : Fin 4 → Nat) a + S1x1x32x512.size a ≤ S1x8x256x512.size a
  slices_S32x258x514_o0_129_0_S32x32x512 : S32x258x514.Slices ![0, 129, 0] S32x32x512
  inb_S1x8x256x512_S1x1x32x512_0_3_128_0 : ∀ a, (![0, 3, 128, 0] : Fin 4 → Nat) a + S1x1x32x512.size a ≤ S1x8x256x512.size a
  slices_S32x258x514_o0_129_2_S32x32x512 : S32x258x514.Slices ![0, 129, 2] S32x32x512
  inb_S1x8x256x512_S1x1x32x512_0_4_128_0 : ∀ a, (![0, 4, 128, 0] : Fin 4 → Nat) a + S1x1x32x512.size a ≤ S1x8x256x512.size a
  slices_S32x258x514_o0_130_0_S32x32x512 : S32x258x514.Slices ![0, 130, 0] S32x32x512
  inb_S1x8x256x512_S1x1x32x512_0_5_128_0 : ∀ a, (![0, 5, 128, 0] : Fin 4 → Nat) a + S1x1x32x512.size a ≤ S1x8x256x512.size a
  slices_S32x258x514_o0_130_1_S32x32x512 : S32x258x514.Slices ![0, 130, 1] S32x32x512
  inb_S1x8x256x512_S1x1x32x512_0_6_128_0 : ∀ a, (![0, 6, 128, 0] : Fin 4 → Nat) a + S1x1x32x512.size a ≤ S1x8x256x512.size a
  slices_S32x258x514_o0_130_2_S32x32x512 : S32x258x514.Slices ![0, 130, 2] S32x32x512
  inb_S1x8x256x512_S1x1x32x512_0_7_128_0 : ∀ a, (![0, 7, 128, 0] : Fin 4 → Nat) a + S1x1x32x512.size a ≤ S1x8x256x512.size a
  slices_S32x258x514_o0_161_1_S32x32x512 : S32x258x514.Slices ![0, 161, 1] S32x32x512
  slices_S32x258x514_o0_160_0_S32x32x512 : S32x258x514.Slices ![0, 160, 0] S32x32x512
  inb_S1x8x256x512_S1x1x32x512_0_0_160_0 : ∀ a, (![0, 0, 160, 0] : Fin 4 → Nat) a + S1x1x32x512.size a ≤ S1x8x256x512.size a
  slices_S32x258x514_o0_160_1_S32x32x512 : S32x258x514.Slices ![0, 160, 1] S32x32x512
  inb_S1x8x256x512_S1x1x32x512_0_1_160_0 : ∀ a, (![0, 1, 160, 0] : Fin 4 → Nat) a + S1x1x32x512.size a ≤ S1x8x256x512.size a
  slices_S32x258x514_o0_160_2_S32x32x512 : S32x258x514.Slices ![0, 160, 2] S32x32x512
  inb_S1x8x256x512_S1x1x32x512_0_2_160_0 : ∀ a, (![0, 2, 160, 0] : Fin 4 → Nat) a + S1x1x32x512.size a ≤ S1x8x256x512.size a
  slices_S32x258x514_o0_161_0_S32x32x512 : S32x258x514.Slices ![0, 161, 0] S32x32x512
  inb_S1x8x256x512_S1x1x32x512_0_3_160_0 : ∀ a, (![0, 3, 160, 0] : Fin 4 → Nat) a + S1x1x32x512.size a ≤ S1x8x256x512.size a
  slices_S32x258x514_o0_161_2_S32x32x512 : S32x258x514.Slices ![0, 161, 2] S32x32x512
  inb_S1x8x256x512_S1x1x32x512_0_4_160_0 : ∀ a, (![0, 4, 160, 0] : Fin 4 → Nat) a + S1x1x32x512.size a ≤ S1x8x256x512.size a
  slices_S32x258x514_o0_162_0_S32x32x512 : S32x258x514.Slices ![0, 162, 0] S32x32x512
  inb_S1x8x256x512_S1x1x32x512_0_5_160_0 : ∀ a, (![0, 5, 160, 0] : Fin 4 → Nat) a + S1x1x32x512.size a ≤ S1x8x256x512.size a
  slices_S32x258x514_o0_162_1_S32x32x512 : S32x258x514.Slices ![0, 162, 1] S32x32x512
  inb_S1x8x256x512_S1x1x32x512_0_6_160_0 : ∀ a, (![0, 6, 160, 0] : Fin 4 → Nat) a + S1x1x32x512.size a ≤ S1x8x256x512.size a
  slices_S32x258x514_o0_162_2_S32x32x512 : S32x258x514.Slices ![0, 162, 2] S32x32x512
  inb_S1x8x256x512_S1x1x32x512_0_7_160_0 : ∀ a, (![0, 7, 160, 0] : Fin 4 → Nat) a + S1x1x32x512.size a ≤ S1x8x256x512.size a
  slices_S32x258x514_o0_193_1_S32x32x512 : S32x258x514.Slices ![0, 193, 1] S32x32x512
  slices_S32x258x514_o0_192_0_S32x32x512 : S32x258x514.Slices ![0, 192, 0] S32x32x512
  inb_S1x8x256x512_S1x1x32x512_0_0_192_0 : ∀ a, (![0, 0, 192, 0] : Fin 4 → Nat) a + S1x1x32x512.size a ≤ S1x8x256x512.size a
  slices_S32x258x514_o0_192_1_S32x32x512 : S32x258x514.Slices ![0, 192, 1] S32x32x512
  inb_S1x8x256x512_S1x1x32x512_0_1_192_0 : ∀ a, (![0, 1, 192, 0] : Fin 4 → Nat) a + S1x1x32x512.size a ≤ S1x8x256x512.size a
  slices_S32x258x514_o0_192_2_S32x32x512 : S32x258x514.Slices ![0, 192, 2] S32x32x512
  inb_S1x8x256x512_S1x1x32x512_0_2_192_0 : ∀ a, (![0, 2, 192, 0] : Fin 4 → Nat) a + S1x1x32x512.size a ≤ S1x8x256x512.size a
  slices_S32x258x514_o0_193_0_S32x32x512 : S32x258x514.Slices ![0, 193, 0] S32x32x512
  inb_S1x8x256x512_S1x1x32x512_0_3_192_0 : ∀ a, (![0, 3, 192, 0] : Fin 4 → Nat) a + S1x1x32x512.size a ≤ S1x8x256x512.size a
  slices_S32x258x514_o0_193_2_S32x32x512 : S32x258x514.Slices ![0, 193, 2] S32x32x512
  inb_S1x8x256x512_S1x1x32x512_0_4_192_0 : ∀ a, (![0, 4, 192, 0] : Fin 4 → Nat) a + S1x1x32x512.size a ≤ S1x8x256x512.size a
  slices_S32x258x514_o0_194_0_S32x32x512 : S32x258x514.Slices ![0, 194, 0] S32x32x512
  inb_S1x8x256x512_S1x1x32x512_0_5_192_0 : ∀ a, (![0, 5, 192, 0] : Fin 4 → Nat) a + S1x1x32x512.size a ≤ S1x8x256x512.size a
  slices_S32x258x514_o0_194_1_S32x32x512 : S32x258x514.Slices ![0, 194, 1] S32x32x512
  inb_S1x8x256x512_S1x1x32x512_0_6_192_0 : ∀ a, (![0, 6, 192, 0] : Fin 4 → Nat) a + S1x1x32x512.size a ≤ S1x8x256x512.size a
  slices_S32x258x514_o0_194_2_S32x32x512 : S32x258x514.Slices ![0, 194, 2] S32x32x512
  inb_S1x8x256x512_S1x1x32x512_0_7_192_0 : ∀ a, (![0, 7, 192, 0] : Fin 4 → Nat) a + S1x1x32x512.size a ≤ S1x8x256x512.size a
  slices_S32x258x514_o0_225_1_S32x32x512 : S32x258x514.Slices ![0, 225, 1] S32x32x512
  slices_S32x258x514_o0_224_0_S32x32x512 : S32x258x514.Slices ![0, 224, 0] S32x32x512
  inb_S1x8x256x512_S1x1x32x512_0_0_224_0 : ∀ a, (![0, 0, 224, 0] : Fin 4 → Nat) a + S1x1x32x512.size a ≤ S1x8x256x512.size a
  slices_S32x258x514_o0_224_1_S32x32x512 : S32x258x514.Slices ![0, 224, 1] S32x32x512
  inb_S1x8x256x512_S1x1x32x512_0_1_224_0 : ∀ a, (![0, 1, 224, 0] : Fin 4 → Nat) a + S1x1x32x512.size a ≤ S1x8x256x512.size a
  slices_S32x258x514_o0_224_2_S32x32x512 : S32x258x514.Slices ![0, 224, 2] S32x32x512
  inb_S1x8x256x512_S1x1x32x512_0_2_224_0 : ∀ a, (![0, 2, 224, 0] : Fin 4 → Nat) a + S1x1x32x512.size a ≤ S1x8x256x512.size a
  slices_S32x258x514_o0_225_0_S32x32x512 : S32x258x514.Slices ![0, 225, 0] S32x32x512
  inb_S1x8x256x512_S1x1x32x512_0_3_224_0 : ∀ a, (![0, 3, 224, 0] : Fin 4 → Nat) a + S1x1x32x512.size a ≤ S1x8x256x512.size a
  slices_S32x258x514_o0_225_2_S32x32x512 : S32x258x514.Slices ![0, 225, 2] S32x32x512
  inb_S1x8x256x512_S1x1x32x512_0_4_224_0 : ∀ a, (![0, 4, 224, 0] : Fin 4 → Nat) a + S1x1x32x512.size a ≤ S1x8x256x512.size a
  slices_S32x258x514_o0_226_0_S32x32x512 : S32x258x514.Slices ![0, 226, 0] S32x32x512
  inb_S1x8x256x512_S1x1x32x512_0_5_224_0 : ∀ a, (![0, 5, 224, 0] : Fin 4 → Nat) a + S1x1x32x512.size a ≤ S1x8x256x512.size a
  slices_S32x258x514_o0_226_1_S32x32x512 : S32x258x514.Slices ![0, 226, 1] S32x32x512
  inb_S1x8x256x512_S1x1x32x512_0_6_224_0 : ∀ a, (![0, 6, 224, 0] : Fin 4 → Nat) a + S1x1x32x512.size a ≤ S1x8x256x512.size a
  slices_S32x258x514_o0_226_2_S32x32x512 : S32x258x514.Slices ![0, 226, 2] S32x32x512
  inb_S1x8x256x512_S1x1x32x512_0_7_224_0 : ∀ a, (![0, 7, 224, 0] : Fin 4 → Nat) a + S1x1x32x512.size a ≤ S1x8x256x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x258x514.size a ≤ S4x32x258x514.size a
  hwx0_0 : ∀ i : grid0.Coords, EltTy.bits .f32 = 32 ∨ (Rect.block (s := S4x32x258x514) S1x32x258x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x512.size a ≤ S4x8x256x512.size a
  hwx0_1 : ∀ i : grid0.Coords, EltTy.bits .f32 = 32 ∨ (Rect.block (s := S4x8x256x512) S1x8x256x512.size (cc0_transform_1 i) (hinb0_1 i)).WholeWords (EltTy.packing .f32)

variable [Facts₀]

abbrev win0_0 : Pipeline.Window sig grid0 :=
  Pipeline.Window.ofSpec (Memref.whole main_v0) S1x32x258x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x256x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x32x256x512 : Shape := ⟨4, ![4, 32, 256, 512]⟩
abbrev S_ : Shape := ⟨0, ![]⟩
abbrev S4x256x512 : Shape := ⟨3, ![4, 256, 512]⟩
abbrev S4x1x256x512 : Shape := ⟨4, ![4, 1, 256, 512]⟩
abbrev S4x32x258x514 : Shape := ⟨4, ![4, 32, 258, 514]⟩
abbrev S4x8x256x512 : Shape := ⟨4, ![4, 8, 256, 512]⟩

abbrev nBuf : Space → Nat
  | .hbm => 93
  | .vmem => 0
  | .smem => 0
  | _ => 0

abbrev bufTy : (tb : Table) → Fin (tcTables nBuf tb) → BufTy
  | .hbm, ⟨0, _⟩ => ⟨S4x32x256x512, .f32⟩
  | .hbm, ⟨1, _⟩ => ⟨S4x32x256x512, .f32⟩
  | .hbm, ⟨2, _⟩ => ⟨S_, .f32⟩
  | .hbm, ⟨3, _⟩ => ⟨S4x256x512, .f32⟩
  | .hbm, ⟨4, _⟩ => ⟨S4x1x256x512, .f32⟩
  | .hbm, ⟨5, _⟩ => ⟨S4x1x256x512, .f32⟩
  | .hbm, ⟨6, _⟩ => ⟨S_, .f32⟩
  | .hbm, ⟨7, _⟩ => ⟨S4x1x256x512, .f32⟩
  | .hbm, ⟨8, _⟩ => ⟨S4x1x256x512, .f32⟩
  | .hbm, ⟨9, _⟩ => ⟨S4x32x256x512, .f32⟩
  | .hbm, ⟨10, _⟩ => ⟨S4x32x256x512, .f32⟩
  | .hbm, ⟨11, _⟩ => ⟨S_, .i32⟩
  | .hbm, ⟨12, _⟩ => ⟨S_, .f32⟩
  | .hbm, ⟨13, _⟩ => ⟨S4x32x258x514, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4x32x256x512, .f32⟩
  | .hbm, ⟨19, _⟩ => ⟨S4x32x256x512, .f32⟩
  | .hbm, ⟨20, _⟩ => ⟨S_, .f32⟩
  | .hbm, ⟨21, _⟩ => ⟨S4x256x512, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x32x256x512, .f32⟩
  | .hbm, ⟨27, _⟩ => ⟨S4x32x256x512, .f32⟩
  | .hbm, ⟨28, _⟩ => ⟨S_, .f32⟩
  | .hbm, ⟨29, _⟩ => ⟨S4x256x512, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x32x256x512, .f32⟩
  | .hbm, ⟨35, _⟩ => ⟨S4x32x256x512, .f32⟩
  | .hbm, ⟨36, _⟩ => ⟨S_, .f32⟩
  | .hbm, ⟨37, _⟩ => ⟨S4x256x512, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4x32x256x512, .f32⟩
  | .hbm, ⟨43, _⟩ => ⟨S4x32x256x512, .f32⟩
  | .hbm, ⟨44, _⟩ => ⟨S_, .f32⟩
  | .hbm, ⟨45, _⟩ => ⟨S4x256x512, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4x32x256x512, .f32⟩
  | .hbm, ⟨51, _⟩ => ⟨S4x32x256x512, .f32⟩
  | .hbm, ⟨52, _⟩ => ⟨S_, .f32⟩
  | .hbm, ⟨53, _⟩ => ⟨S4x256x512, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S4x32x256x512, .f32⟩
  | .hbm, ⟨59, _⟩ => ⟨S4x32x256x512, .f32⟩
  | .hbm, ⟨60, _⟩ => ⟨S_, .f32⟩
  | .hbm, ⟨61, _⟩ => ⟨S4x256x512, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S4x32x256x512, .f32⟩
  | .hbm, ⟨67, _⟩ => ⟨S4x32x256x512, .f32⟩
  | .hbm, ⟨68, _⟩ => ⟨S_, .f32⟩
  | .hbm, ⟨69, _⟩ => ⟨S4x256x512, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S4x32x256x512, .f32⟩
  | .hbm, ⟨75, _⟩ => ⟨S4x32x256x512, .f32⟩
  | .hbm, ⟨76, _⟩ => ⟨S_, .f32⟩
  | .hbm, ⟨77, _⟩ => ⟨S4x256x512, .f32⟩
  | .hbm, ⟨78, _⟩ => ⟨S4x1x256x512, .f32⟩
  | .hbm, ⟨79, _⟩ => ⟨S4x1x256x512, .f32⟩
  | .hbm, ⟨80, _⟩ => ⟨S4x1x256x512, .f32⟩
  | .hbm, ⟨81, _⟩ => ⟨S4x1x256x512, .f32⟩
  | .hbm, ⟨82, _⟩ => ⟨S4x1x256x512, .f32⟩
  | .hbm, ⟨83, _⟩ => ⟨S4x1x256x512, .f32⟩
  | .hbm, ⟨84, _⟩ => ⟨S4x1x256x512, .f32⟩
  | .hbm, ⟨85, _⟩ => ⟨S4x1x256x512, .f32⟩
  | .hbm, ⟨86, _⟩ => ⟨S4x8x256x512, .f32⟩
  | .hbm, ⟨87, _⟩ => ⟨S_, .f32⟩
  | .hbm, ⟨88, _⟩ => ⟨S4x8x256x512, .f32⟩
  | .hbm, ⟨89, _⟩ => ⟨S4x8x256x512, .i1⟩
  | .hbm, ⟨90, _⟩ => ⟨S_, .f32⟩
  | .hbm, ⟨91, _⟩ => ⟨S4x8x256x512, .f32⟩
  | .hbm, ⟨92, _⟩ => ⟨S4x8x256x512, .f32⟩
  | _, _ => ⟨S4x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_c_6 : Ref sig .tc := ⟨.hbm, 22, rfl⟩
abbrev main_c_7 : Ref sig .tc := ⟨.hbm, 23, rfl⟩
abbrev main_c_8 : Ref sig .tc := ⟨.hbm, 24, rfl⟩
abbrev main_c_9 : Ref sig .tc := ⟨.hbm, 25, rfl⟩
abbrev main_v12 : Ref sig .tc := ⟨.hbm, 26, rfl⟩
abbrev main_v13 : Ref sig .tc := ⟨.hbm, 27, rfl⟩
abbrev main_cst_10 : Ref sig .tc := ⟨.hbm, 28, rfl⟩
abbrev main_v14 : Ref sig .tc := ⟨.hbm, 29, rfl⟩
abbrev main_c_11 : Ref sig .tc := ⟨.hbm, 30, rfl⟩
abbrev main_c_12 : Ref sig .tc := ⟨.hbm, 31, rfl⟩
abbrev main_c_13 : Ref sig .tc := ⟨.hbm, 32, rfl⟩
abbrev main_c_14 : Ref sig .tc := ⟨.hbm, 33, rfl⟩
abbrev main_v15 : Ref sig .tc := ⟨.hbm, 34, rfl⟩
abbrev main_v16 : Ref sig .tc := ⟨.hbm, 35, rfl⟩
abbrev main_cst_15 : Ref sig .tc := ⟨.hbm, 36, rfl⟩
abbrev main_v17 : Ref sig .tc := ⟨.hbm, 37, rfl⟩
abbrev main_c_16 : Ref sig .tc := ⟨.hbm, 38, rfl⟩
abbrev main_c_17 : Ref sig .tc := ⟨.hbm, 39, rfl⟩
abbrev main_c_18 : Ref sig .tc := ⟨.hbm, 40, rfl⟩
abbrev main_c_19 : Ref sig .tc := ⟨.hbm, 41, rfl⟩
abbrev main_v18 : Ref sig .tc := ⟨.hbm, 42, rfl⟩
abbrev main_v19 : Ref sig .tc := ⟨.hbm, 43, rfl⟩
abbrev main_cst_20 : Ref sig .tc := ⟨.hbm, 44, rfl⟩
abbrev main_v20 : Ref sig .tc := ⟨.hbm, 45, rfl⟩
abbrev main_c_21 : Ref sig .tc := ⟨.hbm, 46, rfl⟩
abbrev main_c_22 : Ref sig .tc := ⟨.hbm, 47, rfl⟩
abbrev main_c_23 : Ref sig .tc := ⟨.hbm, 48, rfl⟩
abbrev main_c_24 : Ref sig .tc := ⟨.hbm, 49, rfl⟩
abbrev main_v21 : Ref sig .tc := ⟨.hbm, 50, rfl⟩
abbrev main_v22 : Ref sig .tc := ⟨.hbm, 51, rfl⟩
abbrev main_cst_25 : Ref sig .tc := ⟨.hbm, 52, rfl⟩
abbrev main_v23 : Ref sig .tc := ⟨.hbm, 53, rfl⟩
abbrev main_c_26 : Ref sig .tc := ⟨.hbm, 54, rfl⟩
abbrev main_c_27 : Ref sig .tc := ⟨.hbm, 55, rfl⟩
abbrev main_c_28 : Ref sig .tc := ⟨.hbm, 56, rfl⟩
abbrev main_c_29 : Ref sig .tc := ⟨.hbm, 57, rfl⟩
abbrev main_v24 : Ref sig .tc := ⟨.hbm, 58, rfl⟩
abbrev main_v25 : Ref sig .tc := ⟨.hbm, 59, rfl⟩
abbrev main_cst_30 : Ref sig .tc := ⟨.hbm, 60, rfl⟩
abbrev main_v26 : Ref sig .tc := ⟨.hbm, 61, rfl⟩
abbrev main_c_31 : Ref sig .tc := ⟨.hbm, 62, rfl⟩
abbrev main_c_32 : Ref sig .tc := ⟨.hbm, 63, rfl⟩
abbrev main_c_33 : Ref sig .tc := ⟨.hbm, 64, rfl⟩
abbrev main_c_34 : Ref sig .tc := ⟨.hbm, 65, rfl⟩
abbrev main_v27 : Ref sig .tc := ⟨.hbm, 66, rfl⟩
abbrev main_v28 : Ref sig .tc := ⟨.hbm, 67, rfl⟩
abbrev main_cst_35 : Ref sig .tc := ⟨.hbm, 68, rfl⟩
abbrev main_v29 : Ref sig .tc := ⟨.hbm, 69, rfl⟩
abbrev main_c_36 : Ref sig .tc := ⟨.hbm, 70, rfl⟩
abbrev main_c_37 : Ref sig .tc := ⟨.hbm, 71, rfl⟩
abbrev main_c_38 : Ref sig .tc := ⟨.hbm, 72, rfl⟩
abbrev main_c_39 : Ref sig .tc := ⟨.hbm, 73, rfl⟩
abbrev main_v30 : Ref sig .tc := ⟨.hbm, 74, rfl⟩
abbrev main_v31 : Ref sig .tc := ⟨.hbm, 75, rfl⟩
abbrev main_cst_40 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_41 : Ref sig .tc := ⟨.hbm, 87, rfl⟩
abbrev main_v42 : Ref sig .tc := ⟨.hbm, 88, rfl⟩
abbrev main_v43 : Ref sig .tc := ⟨.hbm, 89, rfl⟩
abbrev main_cst_42 : Ref sig .tc := ⟨.hbm, 90, rfl⟩
abbrev main_call1_v0 : Ref sig .tc := ⟨.hbm, 91, rfl⟩
abbrev main_v44 : Ref sig .tc := ⟨.hbm, 92, rfl⟩

abbrev nD : Nat := 1
abbrev τ : Topo := Topo.v7x

variable {F : FTy → Type} [FloatOps F]

class Facts₀ : Prop where
  reducesTo_S4x32x256x512_S4x256x512_d1 : S4x32x256x512.ReducesTo [1] S4x256x512
  h_S_ : 0 < S_.numel
  bcast_S4x256x512_S4x1x256x512_0_2_3 : S4x256x512.BroadcastsInDim S4x1x256x512 (![0, 2, 3] : Fin 3 → Fin S4x1x256x512.rank)
  bcast_S_S4x1x256x512 : S_.BroadcastsInDim S4x1x256x512 (![] : Fin 0 → Fin S4x1x256x512.rank)
  bcast_S4x1x256x512_S4x32x256x512_0_1_2_3 : S4x1x256x512.BroadcastsInDim S4x32x256x512 (![0, 1, 2, 3] : Fin 4 → Fin S4x32x256x512.rank)
  pads_S4x32x256x512_S4x32x258x514_000_000_110_110 : S4x32x256x512.Pads (![0, 0, 1, 1] : Fin 4 → Nat) ![0, 0, 1, 1] ![0, 0, 0, 0] S4x32x258x514
  sliceFits_S4x32x258x514_S4x32x256x512 : S4x32x258x514.Slices (fun _ => 0) S4x32x256x512
  concatenates_S4x1x256x512_S4x1x256x512_S4x1x256x512_S4x1x256x512_S4x1x256x512_S4x1x256x512_S4x1x256x512_S4x1x256x512_S4x8x256x512_d1 : Shape.Concatenates [S4x1x256x512, S4x1x256x512, S4x1x256x512, S4x1x256x512, S4x1x256x512, S4x1x256x512, S4x1x256x512, S4x1x256x512] S4x8x256x512 1
  bcast_S_S4x8x256x512 : S_.BroadcastsInDim S4x8x256x512 (![] : Fin 0 → Fin S4x8x256x512.rank)

variable [Facts₀]

class Facts : Prop extends Facts₀ where

variable [Facts]
-- ==== Proof.Spec.lean ====
/-
  The mathematics both programs compute, stated once over the extended reals, and the two layout readings they share.

  Input: an array x[b, c, h, w] of extents [4, 32, 256, 512]. At every pixel (b, h, w) the channel vector x[b, ·, h, w]
  is divided by the larger of its Euclidean norm and a small positive constant (`nrm`). The normalised array is then
  surrounded by one ring of zeros in the two spatial axes (`padAt`), and for each of the eight neighbours
  (di, dj) ≠ (1, 1) of the 3 × 3 window the result holds the channel-wise dot product of the normalised vector at
  the pixel with the normalised (or zero) vector at the neighbour, replaced by zero where it is negative (`G`).

  One program normalises first and pads afterwards; the other pads the raw input and normalises the padded array.
  They agree because a zero vector normalises to zero: 0 / max(√0, ε) = 0 for ε > 0 (`div_zero_max`, `nrmPad_eq`).
  No other law of the extended reals is used, so nothing here needs the entries to be finite.
-/
import Idealize.ShloMosaic.Lib.ValueIdx
import Idealize.ShloMosaic.Lib.KernelVsHost
import Idealize.ShloMosaic.Lib.DynamicIndex
import Idealize.ShloMosaic.Lib.Pipeline.Value
import Idealize.ShloMosaic.PureOps.Ideal.Laws

noncomputable section

namespace Cert.Affinity

open Idealize.ShloMosaic Idealize.ShloMosaic.ValueIdx

/-- The input's shape, the padded shape, the result's shape and the scalar shape. -/
abbrev SIn : Shape := ⟨4, ![4, 32, 256, 512]⟩
abbrev SPad : Shape := ⟨4, ![4, 32, 258, 514]⟩
abbrev SOut : Shape := ⟨4, ![4, 8, 256, 512]⟩
abbrev S0 : Shape := ⟨0, ![]⟩

/-! ## An array surrounded by one ring of a constant in its two last axes -/

/-- Padded coordinates (y, x) that fall on the original array, not on the ring. -/
def Inside (y x : ℕ) : Prop := (1 ≤ y ∧ y ≤ 256) ∧ (1 ≤ x ∧ x ≤ 512)

instance (y x : ℕ) : Decidable (Inside y x) := by unfold Inside; infer_instance

/-- The array `f` surrounded by one ring of `z`, read at padded coordinates (given as natural numbers, so that a
    shifted coordinate `h + di` needs no bound to be written). -/
def padAt {α : Type} (f : SIn.Idx → α) (z : α) (b : Fin 4) (c : Fin 32) (y x : ℕ) : α :=
  if h : Inside y x then
    f (ix4 b c ⟨y - 1, by obtain ⟨⟨_, _⟩, _, _⟩ := h; omega⟩ ⟨x - 1, by obtain ⟨⟨_, _⟩, _, _⟩ := h; omega⟩)
  else z

/-- The host's pad by one entry on each side of the two last axes, read at an index, is `padAt`. -/
theorem pad_apply {α : Type} (f : SIn.Idx → α) (z : S0.Idx → α)
    (hp : SIn.Pads (![0, 0, 1, 1] : Fin 4 → Nat) ![0, 0, 1, 1] ![0, 0, 0, 0] SPad) (hz : 0 < S0.numel)
    (b : Fin 4) (c : Fin 32) (y : Fin 258) (x : Fin 514) :
    pad SPad ![0, 0, 1, 1] ![0, 0, 1, 1] ![0, 0, 0, 0] f z hp hz (ix4 b c y x) = padAt f (z ix0) b c y.val x.val := by
  unfold padAt
  by_cases h : Inside y.val x.val
  · rw [dif_pos h]
    obtain ⟨⟨h1, h2⟩, h3, h4⟩ := h
    refine pad_apply_of_inside _ _ _ f z hp hz _ _ (fun a => ?_)
    match a with
    | ⟨0, _⟩ => show b.val = 0 + b.val * (0 + 1); omega
    | ⟨1, _⟩ => show c.val = 0 + c.val * (0 + 1); omega
    | ⟨2, _⟩ => show y.val = 1 + (y.val - 1) * (0 + 1); omega
    | ⟨3, _⟩ => show x.val = 1 + (x.val - 1) * (0 + 1); omega
  · rw [dif_neg h]
    have hz0 : z (Shape.Idx.first hz) = z ix0 := congrArg z (funext fun a => a.elim0)
    rw [← hz0]
    by_cases hy : 1 ≤ y.val ∧ y.val ≤ 256
    · refine pad_apply_of_not_inside _ _ _ f z hp hz _ ⟨3, by decide⟩ (fun hc => h ⟨hy, ?_⟩)
      have hc' : 1 ≤ x.val ∧ (x.val - 1) % 1 = 0 ∧ (x.val - 1) / 1 < 512 := hc
      omega
    · refine pad_apply_of_not_inside _ _ _ f z hp hz _ ⟨2, by decide⟩ (fun hc => hy ?_)
      have hc' : 1 ≤ y.val ∧ (y.val - 1) % 1 = 0 ∧ (y.val - 1) / 1 < 256 := hc
      omega

/-- A block of the input's extents cut out of the padded array at the start (0, 0, i, j), i, j ≤ 2 — the host's
    `dynamic_slice` at those starts — reads the padded array at the shifted coordinates. -/
theorem slice_pad_apply {α : Type} (f : SIn.Idx → α) (z : S0.Idx → α)
    (hp : SIn.Pads (![0, 0, 1, 1] : Fin 4 → Nat) ![0, 0, 1, 1] ![0, 0, 0, 0] SPad) (hz : 0 < S0.numel)
    (hs : SPad.Slices (fun _ => 0) SIn) (start : Fin 4 → Int) (i j : ℕ) (hi : i ≤ 2) (hj : j ≤ 2)
    (hstart : ∀ a, start a = ((![0, 0, i, j] : Fin 4 → ℕ) a : Int))
    (b : Fin 4) (c : Fin 32) (h : Fin 256) (w : Fin 512) :
    Host.dynamicSlice SIn (pad SPad ![0, 0, 1, 1] ![0, 0, 1, 1] ![0, 0, 0, 0] f z hp hz) start hs (ix4 b c h w)
      = padAt f (z ix0) b c (h.val + i) (w.val + j) := by
  have hoff : SPad.Slices (![0, 0, i, j] : Fin 4 → ℕ) SIn := ⟨rfl, fun a => by
    match a with
    | ⟨0, _⟩ => show 0 + 4 ≤ 4; omega
    | ⟨1, _⟩ => show 0 + 32 ≤ 32; omega
    | ⟨2, _⟩ => show i + 256 ≤ 258; omega
    | ⟨3, _⟩ => show j + 512 ≤ 514; omega⟩
  rw [Host.dynamicSlice_eq_extractStridedSlice SIn _ start _ hs hoff hstart]
  rw [extractStridedSlice_apply _ _ hoff _ (ix4 b c ⟨h.val + i, by omega⟩ ⟨w.val + j, by omega⟩) (fun a => by
    match a with
    | ⟨0, _⟩ => show b.val = 0 + b.val; omega
    | ⟨1, _⟩ => show c.val = 0 + c.val; omega
    | ⟨2, _⟩ => show h.val + i = i + h.val; omega
    | ⟨3, _⟩ => show w.val + j = j + w.val; omega)]
  exact pad_apply f z hp hz b c _ _

/-! ## Normalising a channel vector -/

/-- The small positive constant the norm is kept above (the same float word in both programs; it is never evaluated
    beyond its sign). -/
def eps : EReal := Ideal.ofBits .f32 0x2B8CBCCC#32

theorem eps_pos : 0 < eps := by
  unfold eps
  simp [Ideal.ofBits, Ideal.ieee]
  rw [← EReal.coe_mul, EReal.coe_pos]
  positivity

/-- Entry `v` of a vector whose squares sum to `ss`, divided by the larger of the vector's norm and `eps`. -/
def unit (v ss : EReal) : EReal := Ideal.div v (max (Ideal.sqrt ss) eps)

/-- A zero entry normalises to zero whatever the norm: the divisor is at least `eps`, so it is not zero, and
    0 · y⁻¹ = 0 on the extended reals (also at y = ⊤). -/
theorem div_zero_max (s : EReal) : Ideal.div 0 (max s eps) = 0 := by
  have h : max s eps ≠ 0 := ne_of_gt (lt_of_lt_of_le eps_pos (le_max_right _ _))
  unfold Ideal.div
  rw [if_neg h, zero_mul]

/-- The normalised input: each entry over max(norm of its pixel's channel vector, eps). -/
def nrm (x : SIn.Idx → EReal) (i : SIn.Idx) : EReal :=
  unit (x i) (∑ c' : Fin 32, x (ix4 (i 0) c' (i 2) (i 3)) * x (ix4 (i 0) c' (i 2) (i 3)))

/-- The zero-padded RAW input normalised afterwards, at padded coordinates. -/
def nrmPad (x : SIn.Idx → EReal) (b : Fin 4) (c : Fin 32) (y z : ℕ) : EReal :=
  unit (padAt x 0 b c y z) (∑ c' : Fin 32, padAt x 0 b c' y z * padAt x 0 b c' y z)

/-- Padding with zeros commutes with the normalisation: on the ring the vector is zero and normalises to zero. -/
theorem nrmPad_eq (x : SIn.Idx → EReal) (b : Fin 4) (c : Fin 32) (y z : ℕ) :
    nrmPad x b c y z = padAt (nrm x) 0 b c y z := by
  unfold nrmPad
  by_cases h : Inside y z
  · simp only [padAt, dif_pos h]
    rfl
  · simp only [padAt, dif_neg h]
    exact div_zero_max _

/-- On the original array the padded normalised array is the normalised array. -/
theorem padAt_center {α : Type} (f : SIn.Idx → α) (z : α) (b : Fin 4) (c : Fin 32) (h : Fin 256) (w : Fin 512) :
    padAt f z b c (h.val + 1) (w.val + 1) = f (ix4 b c h w) := by
  have hin : Inside (h.val + 1) (w.val + 1) := ⟨⟨by omega, by omega⟩, by omega, by omega⟩
  unfold padAt
  rw [dif_pos hin]
  rfl

/-! ## The result -/

/-- A negative entry is replaced by zero (the comparison and the select as both programs spell them). -/
def clamp (a : EReal) : EReal :=
  Scalar.select (Ideal.cmp .olt a (Ideal.ofBits .f32 0x00000000#32)) (Ideal.ofBits .f32 0x00000000#32) a

/-- Neighbour `k` (0 … 7) of the 3 × 3 window, the centre left out: its row and column offsets in the padded array. -/
def di (k : ℕ) : ℕ := (if k < 4 then k else k + 1) / 3
def dj (k : ℕ) : ℕ := (if k < 4 then k else k + 1) % 3

/-- THE RESULT as one function of the input: at (b, k, h, w) the clamped dot product over the channels of the
    normalised vector at pixel (h, w) with the normalised, zero-padded vector at its neighbour `k`. -/
def G (x : SIn.Idx → EReal) : SOut.Idx → EReal := fun i =>
  clamp (∑ c : Fin 32,
    padAt (nrm x) 0 (i 0) c ((i 2).val + di (i 1).val) ((i 3).val + dj (i 1).val) * nrm x (ix4 (i 0) c (i 2) (i 3)))

/-! ## One batch entry's block of the result, from the normalised padded block -/

/-- The result's block for one batch entry as a function of that entry's normalised padded array `A c y x`
    (channel, padded row, padded column): the centre of pixel (h, w) is at padded position (h + 1, w + 1). -/
def Gblk (A : Fin 32 → ℕ → ℕ → EReal) : (⟨4, ![1, 8, 256, 512]⟩ : Shape).Idx → EReal := fun j =>
  clamp (∑ c : Fin 32,
    A c ((j 2).val + di (j 1).val) ((j 3).val + dj (j 1).val) * A c ((j 2).val + 1) ((j 3).val + 1))

/-- With the padded raw input normalised afterwards as the block, this is batch entry `t` of `G`. -/
theorem Gblk_nrmPad (x : SIn.Idx → EReal) (t : Fin 4) (u : Fin 1) (k : Fin 8) (h : Fin 256) (w : Fin 512) :
    Gblk (nrmPad x t) (ix4 u k h w) = G x (ix4 t k h w) := by
  unfold Gblk G
  refine congrArg clamp (Finset.sum_congr rfl fun c _ => ?_)
  show nrmPad x t c (h.val + di k.val) (w.val + dj k.val) * nrmPad x t c (h.val + 1) (w.val + 1)
    = padAt (nrm x) 0 t c (h.val + di k.val) (w.val + dj k.val) * nrm x (ix4 t c h w)
  rw [nrmPad_eq, nrmPad_eq, padAt_center]

end Cert.Affinity

end
-- ==== Proof.KernelPoint.lean ====
/-
  The kernel body's values at an index, at the extended reals.

  The body loads one batch entry's zero-padded block [1, 32, 258, 514], divides every channel vector by
  max(its norm, ε) (`feat_apply`: the payload every store reads), and then, for each of eight row chunks and each
  of the eight neighbours, stores a [1, 1, 32, 512] tile: the channel sum of the product of two [32, 32, 512] slices of
  the normalised block — the neighbour's and the centre's — with negative entries replaced by zero. `piece` is that
  tile as a function of the two slice offsets, and `piece_spec` says that, stored at rows r0 … r0 + 31 of plane k, it
  is the tile of `Gblk` (Spec.lean) its rectangle names.
-/
import proofs.«167821_j5076651344326_1_alg».proof.Proof.Gen.KernelIdeal.Skeleton
import proofs.«167821_j5076651344326_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Affinity.Kern

open Cert.KernelIdeal Cert.KernelIdeal.Gen Idealize.ShloMosaic Idealize.ShloMosaic.ValueIdx
open Cert.Affinity

/-- The normalised block at (c, y, x): the loaded block's entry over max(√(Σ_c' entry²), ε). The changes of float
    format are the identity, the shape casts drop or add a unit axis, the broadcast repeats the norm over the channels. -/
theorem feat_apply (v0 : Vec Ideal S1x32x258x514 .f32) (c : Fin 32) (y : Fin 258) (x : Fin 514) :
    k0_pay2 (F := Ideal) v0 (ix3 c y x)
      = unit (v0 (ix4 (0 : Fin 1) c y x))
          (∑ c' : Fin 32, v0 (ix4 (0 : Fin 1) c' y x) * v0 (ix4 (0 : Fin 1) c' y x)) := by
  have hv1 : ∀ c' : Fin 32, shapeCast S32x258x514 v0 shapeCasts_S1x32x258x514_S32x258x514 (ix3 c' y x)
      = v0 (ix4 (0 : Fin 1) c' y x) := fun c' => shapeCast_1abc_abc_apply v0 _ c' y x
  unfold k0_pay2 unit
  refine congrArg₂ Ideal.div (hv1 c) ?_
  refine (broadcastTo_apply _ broadcasts_S1x258x514_S32x258x514 (ix3 c y x) (ix3 (0 : Fin 1) y x) (fun a => by
    match a with
    | ⟨0, _⟩ => show 0 = if (1 : ℕ) = 1 then 0 else c.val; rw [if_pos rfl]
    | ⟨1, _⟩ => show y.val = if (258 : ℕ) = 1 then 0 else y.val; rw [if_neg (by decide)]
    | ⟨2, _⟩ => show x.val = if (514 : ℕ) = 1 then 0 else x.val; rw [if_neg (by decide)])).trans ?_
  refine congrArg₂ max ?_ rfl
  refine congrArg Ideal.sqrt ?_
  refine (shapeCast_ab_1ab_apply _ shapeCasts_S258x514_S1x258x514 (0 : Fin 1) y x).trans ?_
  refine (Ideal.multiReduction_add_single _ _ reduces_S32x258x514_S258x514 _ _ (ix2 y x)).trans ?_
  refine Finset.sum_congr rfl fun c' _ => ?_
  have el : (reduces_S32x258x514_S258x514).lift (ix2 y x) c' = ix3 c' y x :=
    funext fun a => Fin.ext (by match a with | ⟨0, _⟩ => rfl | ⟨1, _⟩ => rfl | ⟨2, _⟩ => rfl)
  rw [el]
  exact congrArg₂ (· * ·) (hv1 c') (hv1 c')

/-- The channel sums of the product of the slices of the normalised block at offsets `o` and `oc`. -/
def dots (o oc : Fin 3 → ℕ) (ho : S32x258x514.Slices o S32x32x512) (hoc : S32x258x514.Slices oc S32x32x512)
    (v10 : FVec Ideal S32x258x514 .bf16) : FVec Ideal S32x512 .f32 :=
  multiReduction .add [0] S32x512
    (mulf (extf .f32 (extractStridedSlice S32x32x512 o v10 ho) bitsLt_bf16_f32)
      (extf .f32 (extractStridedSlice S32x32x512 oc v10 hoc) bitsLt_bf16_f32))
    0x00000000#32 reduces_S32x32x512_S32x512 (.inl rfl) rfl

/-- ONE STORE'S TILE: the sums above with the negative entries replaced by zero, as a [1, 1, 32, 512] tile. -/
def piece (o oc : Fin 3 → ℕ) (ho : S32x258x514.Slices o S32x32x512) (hoc : S32x258x514.Slices oc S32x32x512)
    (v10 : FVec Ideal S32x258x514 .bf16) : FVec Ideal S1x1x32x512 .f32 :=
  shapeCast S1x1x32x512
    (select (cmpf .olt (dots o oc ho hoc v10) (broadcast S32x512 (Scalar.ofBits .f32 0x00000000#32)))
      (broadcast S32x512 (Scalar.ofBits .f32 0x00000000#32)) (dots o oc ho hoc v10))
    shapeCasts_S32x512_S1x1x32x512

/-- A slice of the normalised block at offsets (0, o1, o2), read at (c, r, w), is the block at (c, o1 + r, o2 + w). -/
theorem slice_apply (o1 o2 : ℕ) (ho : S32x258x514.Slices ![0, o1, o2] S32x32x512)
    (v10 : FVec Ideal S32x258x514 .bf16) (A : Fin 32 → ℕ → ℕ → EReal)
    (hA : ∀ (c : Fin 32) (y : Fin 258) (x : Fin 514), v10 (ix3 c y x) = A c y.val x.val)
    (c : Fin 32) (r : Fin 32) (w : Fin 512) :
    extractStridedSlice S32x32x512 ![0, o1, o2] v10 ho (ix3 c r w) = A c (o1 + r.val) (o2 + w.val) := by
  have h1 : o1 + 32 ≤ 258 := ho.2 (1 : Fin 3)
  have h2 : o2 + 512 ≤ 514 := ho.2 (2 : Fin 3)
  refine (extractStridedSlice_apply _ v10 ho (ix3 c r w) (ix3 c ⟨o1 + r.val, by omega⟩ ⟨o2 + w.val, by omega⟩) (fun a => by
    match a with
    | ⟨0, _⟩ => show c.val = 0 + c.val; omega
    | ⟨1, _⟩ => rfl
    | ⟨2, _⟩ => rfl)).trans (hA _ _ _)

/-- The tile at (·, ·, r, w): the clamped channel sum of the two slices' product. -/
theorem piece_apply (o1 o2 oc1 oc2 : ℕ) (ho : S32x258x514.Slices ![0, o1, o2] S32x32x512)
    (hoc : S32x258x514.Slices ![0, oc1, oc2] S32x32x512)
    (v10 : FVec Ideal S32x258x514 .bf16) (A : Fin 32 → ℕ → ℕ → EReal)
    (hA : ∀ (c : Fin 32) (y : Fin 258) (x : Fin 514), v10 (ix3 c y x) = A c y.val x.val)
    (u u' : Fin 1) (r : Fin 32) (w : Fin 512) :
    piece ![0, o1, o2] ![0, oc1, oc2] ho hoc v10 (ix4 u u' r w)
      = clamp (∑ c : Fin 32, A c (o1 + r.val) (o2 + w.val) * A c (oc1 + r.val) (oc2 + w.val)) := by
  unfold piece
  refine (shapeCast_apply _ shapeCasts_S32x512_S1x1x32x512 (ix4 u u' r w) (ix2 r w) (by
    rw [Shape.rowMajor_val_two, Shape.rowMajor_val_four]
    show r.val * 512 + w.val = ((u.val * 1 + u'.val) * 32 + r.val) * 512 + w.val
    have := u.isLt; have := u'.isLt; omega)).trans ?_
  show clamp (dots ![0, o1, o2] ![0, oc1, oc2] ho hoc v10 (ix2 r w)) = _
  refine congrArg clamp ?_
  unfold dots
  refine (Ideal.multiReduction_add_single _ _ reduces_S32x32x512_S32x512 _ _ (ix2 r w)).trans ?_
  refine Finset.sum_congr rfl fun c _ => ?_
  have el : (reduces_S32x32x512_S32x512).lift (ix2 r w) c = ix3 c r w :=
    funext fun a => Fin.ext (by match a with | ⟨0, _⟩ => rfl | ⟨1, _⟩ => rfl | ⟨2, _⟩ => rfl)
  rw [el]
  exact congrArg₂ (· * ·) (slice_apply o1 o2 ho v10 A hA c r w) (slice_apply oc1 oc2 hoc v10 A hA c r w)

/-- The tile stored at plane `k`, rows r0 … r0 + 31, from the neighbour's slice at rows r0 + di k, columns dj k and the
    centre's at rows r0 + 1, columns 1, is the tile of `Gblk` under its rectangle. -/
theorem piece_spec (v10 : FVec Ideal S32x258x514 .bf16) (A : Fin 32 → ℕ → ℕ → EReal)
    (hA : ∀ (c : Fin 32) (y : Fin 258) (x : Fin 514), v10 (ix3 c y x) = A c y.val x.val)
    (k r0 o1 o2 oc1 : ℕ) (ho1 : o1 = r0 + di k) (ho2 : o2 = dj k) (hoc1 : oc1 = r0 + 1)
    (hin : ∀ a, (![0, k, r0, 0] : Fin 4 → ℕ) a + S1x1x32x512.size a ≤ S1x8x256x512.size a)
    (ho : S32x258x514.Slices ![0, o1, o2] S32x32x512) (hoc : S32x258x514.Slices ![0, oc1, 1] S32x32x512)
    (xx : S1x1x32x512.Idx) :
    piece ![0, o1, o2] ![0, oc1, 1] ho hoc v10 xx
      = Gblk A ((Rect.unit (s := S1x8x256x512) ![0, k, r0, 0] S1x1x32x512.size hin).emb xx) := by
  obtain ⟨u, u', r, w, rfl⟩ : ∃ u u' r w, xx = ix4 u u' r w := ⟨xx 0, xx 1, xx 2, xx 3, eq_ix4 xx⟩
  rw [piece_apply o1 o2 oc1 1 ho hoc v10 A hA u u' r w]
  unfold Gblk
  refine congrArg clamp (Finset.sum_congr rfl fun c _ => ?_)
  have e1 : ((Rect.unit (s := S1x8x256x512) ![0, k, r0, 0] S1x1x32x512.size hin).emb (ix4 u u' r w) 1).val = k := by
    show k + 1 * u'.val = k
    have := u'.isLt; omega
  have e2 : ((Rect.unit (s := S1x8x256x512) ![0, k, r0, 0] S1x1x32x512.size hin).emb (ix4 u u' r w) 2).val
      = r0 + r.val := by
    show r0 + 1 * r.val = r0 + r.val
    omega
  have e3 : ((Rect.unit (s := S1x8x256x512) ![0, k, r0, 0] S1x1x32x512.size hin).emb (ix4 u u' r w) 3).val = w.val := by
    show 0 + 1 * w.val = w.val
    omega
  rw [e1, e2, e3, ho1, ho2, hoc1]
  exact congrArg₂ (· * ·) (congrArg₂ (A c) (by omega) (by omega)) (congrArg₂ (A c) (by omega) (by omega))

end Cert.Affinity.Kern

end
-- ==== Proof.KernelBlock.lean ====
/-
  What the body leaves in the output block: the sixty-four stored tiles (eight row chunks × eight neighbours) tile the
  [1, 8, 256, 512] block, and each is the tile of `Gblk` under its rectangle (`piece_spec`), so the block read at any
  index is `Gblk` there.
-/
import proofs.«167821_j5076651344326_1_alg».proof.Proof.Gen.KernelIdeal.Frame
import proofs.«167821_j5076651344326_1_alg».proof.Proof.KernelPoint
import Idealize.ShloMosaic.Lib.Pipeline.Value

set_option maxRecDepth 16384

noncomputable section

namespace Cert.Affinity.Kern

open Cert.KernelIdeal Cert.KernelIdeal.Gen Idealize.ShloMosaic Idealize.ShloMosaic.ValueIdx
open Cert.Affinity

/-- The output block after the body, at any index, from the normalised input block `A`: every one of the stores
    holds the tile of `Gblk A` its rectangle names — plane k, rows 32·ch … 32·ch + 31, from the neighbour's slice at
    (32·ch + di k, dj k) and the centre's at (32·ch + 1, 1) — and the stores cover the block. -/
theorem out_apply (x0 : Vec Ideal S1x32x258x514 .f32) (A : Fin 32 → ℕ → ℕ → EReal)
    (hA : ∀ (c : Fin 32) (y : Fin 258) (x : Fin 514),
      k0_pay2 (F := Ideal) (View.ld x0 r0_0) (ix3 c y x) = A c y.val x.val)
    (j : S1x8x256x512.Idx) : out0_1 (F := Ideal) x0 j = Gblk A j := by
  unfold out0_1
  refine View.canon_apply_of_pieces (Val := Elt Ideal) (S := S1x8x256x512) (e := .f32) (Gblk A) _ (List.forall_iff_forall_mem.mp ?_) j
    (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j)
  simp only [List.Forall]
  exact ⟨fun xx => piece_spec (k0_pay2 (View.ld x0 r0_0)) A hA 7 224 226 2 225 rfl rfl rfl
      inb_S1x8x256x512_S1x1x32x512_0_7_224_0 slices_S32x258x514_o0_226_2_S32x32x512 slices_S32x258x514_o0_225_1_S32x32x512 xx,
    fun xx => piece_spec (k0_pay2 (View.ld x0 r0_0)) A hA 6 224 226 1 225 rfl rfl rfl
      inb_S1x8x256x512_S1x1x32x512_0_6_224_0 slices_S32x258x514_o0_226_1_S32x32x512 slices_S32x258x514_o0_225_1_S32x32x512 xx,
    fun xx => piece_spec (k0_pay2 (View.ld x0 r0_0)) A hA 5 224 226 0 225 rfl rfl rfl
      inb_S1x8x256x512_S1x1x32x512_0_5_224_0 slices_S32x258x514_o0_226_0_S32x32x512 slices_S32x258x514_o0_225_1_S32x32x512 xx,
    fun xx => piece_spec (k0_pay2 (View.ld x0 r0_0)) A hA 4 224 225 2 225 rfl rfl rfl
      inb_S1x8x256x512_S1x1x32x512_0_4_224_0 slices_S32x258x514_o0_225_2_S32x32x512 slices_S32x258x514_o0_225_1_S32x32x512 xx,
    fun xx => piece_spec (k0_pay2 (View.ld x0 r0_0)) A hA 3 224 225 0 225 rfl rfl rfl
      inb_S1x8x256x512_S1x1x32x512_0_3_224_0 slices_S32x258x514_o0_225_0_S32x32x512 slices_S32x258x514_o0_225_1_S32x32x512 xx,
    fun xx => piece_spec (k0_pay2 (View.ld x0 r0_0)) A hA 2 224 224 2 225 rfl rfl rfl
      inb_S1x8x256x512_S1x1x32x512_0_2_224_0 slices_S32x258x514_o0_224_2_S32x32x512 slices_S32x258x514_o0_225_1_S32x32x512 xx,
    fun xx => piece_spec (k0_pay2 (View.ld x0 r0_0)) A hA 1 224 224 1 225 rfl rfl rfl
      inb_S1x8x256x512_S1x1x32x512_0_1_224_0 slices_S32x258x514_o0_224_1_S32x32x512 slices_S32x258x514_o0_225_1_S32x32x512 xx,
    fun xx => piece_spec (k0_pay2 (View.ld x0 r0_0)) A hA 0 224 224 0 225 rfl rfl rfl
      inb_S1x8x256x512_S1x1x32x512_0_0_224_0 slices_S32x258x514_o0_224_0_S32x32x512 slices_S32x258x514_o0_225_1_S32x32x512 xx,
    fun xx => piece_spec (k0_pay2 (View.ld x0 r0_0)) A hA 7 192 194 2 193 rfl rfl rfl
      inb_S1x8x256x512_S1x1x32x512_0_7_192_0 slices_S32x258x514_o0_194_2_S32x32x512 slices_S32x258x514_o0_193_1_S32x32x512 xx,
    fun xx => piece_spec (k0_pay2 (View.ld x0 r0_0)) A hA 6 192 194 1 193 rfl rfl rfl
      inb_S1x8x256x512_S1x1x32x512_0_6_192_0 slices_S32x258x514_o0_194_1_S32x32x512 slices_S32x258x514_o0_193_1_S32x32x512 xx,
    fun xx => piece_spec (k0_pay2 (View.ld x0 r0_0)) A hA 5 192 194 0 193 rfl rfl rfl
      inb_S1x8x256x512_S1x1x32x512_0_5_192_0 slices_S32x258x514_o0_194_0_S32x32x512 slices_S32x258x514_o0_193_1_S32x32x512 xx,
    fun xx => piece_spec (k0_pay2 (View.ld x0 r0_0)) A hA 4 192 193 2 193 rfl rfl rfl
      inb_S1x8x256x512_S1x1x32x512_0_4_192_0 slices_S32x258x514_o0_193_2_S32x32x512 slices_S32x258x514_o0_193_1_S32x32x512 xx,
    fun xx => piece_spec (k0_pay2 (View.ld x0 r0_0)) A hA 3 192 193 0 193 rfl rfl rfl
      inb_S1x8x256x512_S1x1x32x512_0_3_192_0 slices_S32x258x514_o0_193_0_S32x32x512 slices_S32x258x514_o0_193_1_S32x32x512 xx,
    fun xx => piece_spec (k0_pay2 (View.ld x0 r0_0)) A hA 2 192 192 2 193 rfl rfl rfl
      inb_S1x8x256x512_S1x1x32x512_0_2_192_0 slices_S32x258x514_o0_192_2_S32x32x512 slices_S32x258x514_o0_193_1_S32x32x512 xx,
    fun xx => piece_spec (k0_pay2 (View.ld x0 r0_0)) A hA 1 192 192 1 193 rfl rfl rfl
      inb_S1x8x256x512_S1x1x32x512_0_1_192_0 slices_S32x258x514_o0_192_1_S32x32x512 slices_S32x258x514_o0_193_1_S32x32x512 xx,
    fun xx => piece_spec (k0_pay2 (View.ld x0 r0_0)) A hA 0 192 192 0 193 rfl rfl rfl
      inb_S1x8x256x512_S1x1x32x512_0_0_192_0 slices_S32x258x514_o0_192_0_S32x32x512 slices_S32x258x514_o0_193_1_S32x32x512 xx,
    fun xx => piece_spec (k0_pay2 (View.ld x0 r0_0)) A hA 7 160 162 2 161 rfl rfl rfl
      inb_S1x8x256x512_S1x1x32x512_0_7_160_0 slices_S32x258x514_o0_162_2_S32x32x512 slices_S32x258x514_o0_161_1_S32x32x512 xx,
    fun xx => piece_spec (k0_pay2 (View.ld x0 r0_0)) A hA 6 160 162 1 161 rfl rfl rfl
      inb_S1x8x256x512_S1x1x32x512_0_6_160_0 slices_S32x258x514_o0_162_1_S32x32x512 slices_S32x258x514_o0_161_1_S32x32x512 xx,
    fun xx => piece_spec (k0_pay2 (View.ld x0 r0_0)) A hA 5 160 162 0 161 rfl rfl rfl
      inb_S1x8x256x512_S1x1x32x512_0_5_160_0 slices_S32x258x514_o0_162_0_S32x32x512 slices_S32x258x514_o0_161_1_S32x32x512 xx,
    fun xx => piece_spec (k0_pay2 (View.ld x0 r0_0)) A hA 4 160 161 2 161 rfl rfl rfl
      inb_S1x8x256x512_S1x1x32x512_0_4_160_0 slices_S32x258x514_o0_161_2_S32x32x512 slices_S32x258x514_o0_161_1_S32x32x512 xx,
    fun xx => piece_spec (k0_pay2 (View.ld x0 r0_0)) A hA 3 160 161 0 161 rfl rfl rfl
      inb_S1x8x256x512_S1x1x32x512_0_3_160_0 slices_S32x258x514_o0_161_0_S32x32x512 slices_S32x258x514_o0_161_1_S32x32x512 xx,
    fun xx => piece_spec (k0_pay2 (View.ld x0 r0_0)) A hA 2 160 160 2 161 rfl rfl rfl
      inb_S1x8x256x512_S1x1x32x512_0_2_160_0 slices_S32x258x514_o0_160_2_S32x32x512 slices_S32x258x514_o0_161_1_S32x32x512 xx,
    fun xx => piece_spec (k0_pay2 (View.ld x0 r0_0)) A hA 1 160 160 1 161 rfl rfl rfl
      inb_S1x8x256x512_S1x1x32x512_0_1_160_0 slices_S32x258x514_o0_160_1_S32x32x512 slices_S32x258x514_o0_161_1_S32x32x512 xx,
    fun xx => piece_spec (k0_pay2 (View.ld x0 r0_0)) A hA 0 160 160 0 161 rfl rfl rfl
      inb_S1x8x256x512_S1x1x32x512_0_0_160_0 slices_S32x258x514_o0_160_0_S32x32x512 slices_S32x258x514_o0_161_1_S32x32x512 xx,
    fun xx => piece_spec (k0_pay2 (View.ld x0 r0_0)) A hA 7 128 130 2 129 rfl rfl rfl
      inb_S1x8x256x512_S1x1x32x512_0_7_128_0 slices_S32x258x514_o0_130_2_S32x32x512 slices_S32x258x514_o0_129_1_S32x32x512 xx,
    fun xx => piece_spec (k0_pay2 (View.ld x0 r0_0)) A hA 6 128 130 1 129 rfl rfl rfl
      inb_S1x8x256x512_S1x1x32x512_0_6_128_0 slices_S32x258x514_o0_130_1_S32x32x512 slices_S32x258x514_o0_129_1_S32x32x512 xx,
    fun xx => piece_spec (k0_pay2 (View.ld x0 r0_0)) A hA 5 128 130 0 129 rfl rfl rfl
      inb_S1x8x256x512_S1x1x32x512_0_5_128_0 slices_S32x258x514_o0_130_0_S32x32x512 slices_S32x258x514_o0_129_1_S32x32x512 xx,
    fun xx => piece_spec (k0_pay2 (View.ld x0 r0_0)) A hA 4 128 129 2 129 rfl rfl rfl
      inb_S1x8x256x512_S1x1x32x512_0_4_128_0 slices_S32x258x514_o0_129_2_S32x32x512 slices_S32x258x514_o0_129_1_S32x32x512 xx,
    fun xx => piece_spec (k0_pay2 (View.ld x0 r0_0)) A hA 3 128 129 0 129 rfl rfl rfl
      inb_S1x8x256x512_S1x1x32x512_0_3_128_0 slices_S32x258x514_o0_129_0_S32x32x512 slices_S32x258x514_o0_129_1_S32x32x512 xx,
    fun xx => piece_spec (k0_pay2 (View.ld x0 r0_0)) A hA 2 128 128 2 129 rfl rfl rfl
      inb_S1x8x256x512_S1x1x32x512_0_2_128_0 slices_S32x258x514_o0_128_2_S32x32x512 slices_S32x258x514_o0_129_1_S32x32x512 xx,
    fun xx => piece_spec (k0_pay2 (View.ld x0 r0_0)) A hA 1 128 128 1 129 rfl rfl rfl
      inb_S1x8x256x512_S1x1x32x512_0_1_128_0 slices_S32x258x514_o0_128_1_S32x32x512 slices_S32x258x514_o0_129_1_S32x32x512 xx,
    fun xx => piece_spec (k0_pay2 (View.ld x0 r0_0)) A hA 0 128 128 0 129 rfl rfl rfl
      inb_S1x8x256x512_S1x1x32x512_0_0_128_0 slices_S32x258x514_o0_128_0_S32x32x512 slices_S32x258x514_o0_129_1_S32x32x512 xx,
    fun xx => piece_spec (k0_pay2 (View.ld x0 r0_0)) A hA 7 96 98 2 97 rfl rfl rfl
      inb_S1x8x256x512_S1x1x32x512_0_7_96_0 slices_S32x258x514_o0_98_2_S32x32x512 slices_S32x258x514_o0_97_1_S32x32x512 xx,
    fun xx => piece_spec (k0_pay2 (View.ld x0 r0_0)) A hA 6 96 98 1 97 rfl rfl rfl
      inb_S1x8x256x512_S1x1x32x512_0_6_96_0 slices_S32x258x514_o0_98_1_S32x32x512 slices_S32x258x514_o0_97_1_S32x32x512 xx,
    fun xx => piece_spec (k0_pay2 (View.ld x0 r0_0)) A hA 5 96 98 0 97 rfl rfl rfl
      inb_S1x8x256x512_S1x1x32x512_0_5_96_0 slices_S32x258x514_o0_98_0_S32x32x512 slices_S32x258x514_o0_97_1_S32x32x512 xx,
    fun xx => piece_spec (k0_pay2 (View.ld x0 r0_0)) A hA 4 96 97 2 97 rfl rfl rfl
      inb_S1x8x256x512_S1x1x32x512_0_4_96_0 slices_S32x258x514_o0_97_2_S32x32x512 slices_S32x258x514_o0_97_1_S32x32x512 xx,
    fun xx => piece_spec (k0_pay2 (View.ld x0 r0_0)) A hA 3 96 97 0 97 rfl rfl rfl
      inb_S1x8x256x512_S1x1x32x512_0_3_96_0 slices_S32x258x514_o0_97_0_S32x32x512 slices_S32x258x514_o0_97_1_S32x32x512 xx,
    fun xx => piece_spec (k0_pay2 (View.ld x0 r0_0)) A hA 2 96 96 2 97 rfl rfl rfl
      inb_S1x8x256x512_S1x1x32x512_0_2_96_0 slices_S32x258x514_o0_96_2_S32x32x512 slices_S32x258x514_o0_97_1_S32x32x512 xx,
    fun xx => piece_spec (k0_pay2 (View.ld x0 r0_0)) A hA 1 96 96 1 97 rfl rfl rfl
      inb_S1x8x256x512_S1x1x32x512_0_1_96_0 slices_S32x258x514_o0_96_1_S32x32x512 slices_S32x258x514_o0_97_1_S32x32x512 xx,
    fun xx => piece_spec (k0_pay2 (View.ld x0 r0_0)) A hA 0 96 96 0 97 rfl rfl rfl
      inb_S1x8x256x512_S1x1x32x512_0_0_96_0 slices_S32x258x514_o0_96_0_S32x32x512 slices_S32x258x514_o0_97_1_S32x32x512 xx,
    fun xx => piece_spec (k0_pay2 (View.ld x0 r0_0)) A hA 7 64 66 2 65 rfl rfl rfl
      inb_S1x8x256x512_S1x1x32x512_0_7_64_0 slices_S32x258x514_o0_66_2_S32x32x512 slices_S32x258x514_o0_65_1_S32x32x512 xx,
    fun xx => piece_spec (k0_pay2 (View.ld x0 r0_0)) A hA 6 64 66 1 65 rfl rfl rfl
      inb_S1x8x256x512_S1x1x32x512_0_6_64_0 slices_S32x258x514_o0_66_1_S32x32x512 slices_S32x258x514_o0_65_1_S32x32x512 xx,
    fun xx => piece_spec (k0_pay2 (View.ld x0 r0_0)) A hA 5 64 66 0 65 rfl rfl rfl
      inb_S1x8x256x512_S1x1x32x512_0_5_64_0 slices_S32x258x514_o0_66_0_S32x32x512 slices_S32x258x514_o0_65_1_S32x32x512 xx,
    fun xx => piece_spec (k0_pay2 (View.ld x0 r0_0)) A hA 4 64 65 2 65 rfl rfl rfl
      inb_S1x8x256x512_S1x1x32x512_0_4_64_0 slices_S32x258x514_o0_65_2_S32x32x512 slices_S32x258x514_o0_65_1_S32x32x512 xx,
    fun xx => piece_spec (k0_pay2 (View.ld x0 r0_0)) A hA 3 64 65 0 65 rfl rfl rfl
      inb_S1x8x256x512_S1x1x32x512_0_3_64_0 slices_S32x258x514_o0_65_0_S32x32x512 slices_S32x258x514_o0_65_1_S32x32x512 xx,
    fun xx => piece_spec (k0_pay2 (View.ld x0 r0_0)) A hA 2 64 64 2 65 rfl rfl rfl
      inb_S1x8x256x512_S1x1x32x512_0_2_64_0 slices_S32x258x514_o0_64_2_S32x32x512 slices_S32x258x514_o0_65_1_S32x32x512 xx,
    fun xx => piece_spec (k0_pay2 (View.ld x0 r0_0)) A hA 1 64 64 1 65 rfl rfl rfl
      inb_S1x8x256x512_S1x1x32x512_0_1_64_0 slices_S32x258x514_o0_64_1_S32x32x512 slices_S32x258x514_o0_65_1_S32x32x512 xx,
    fun xx => piece_spec (k0_pay2 (View.ld x0 r0_0)) A hA 0 64 64 0 65 rfl rfl rfl
      inb_S1x8x256x512_S1x1x32x512_0_0_64_0 slices_S32x258x514_o0_64_0_S32x32x512 slices_S32x258x514_o0_65_1_S32x32x512 xx,
    fun xx => piece_spec (k0_pay2 (View.ld x0 r0_0)) A hA 7 32 34 2 33 rfl rfl rfl
      inb_S1x8x256x512_S1x1x32x512_0_7_32_0 slices_S32x258x514_o0_34_2_S32x32x512 slices_S32x258x514_o0_33_1_S32x32x512 xx,
    fun xx => piece_spec (k0_pay2 (View.ld x0 r0_0)) A hA 6 32 34 1 33 rfl rfl rfl
      inb_S1x8x256x512_S1x1x32x512_0_6_32_0 slices_S32x258x514_o0_34_1_S32x32x512 slices_S32x258x514_o0_33_1_S32x32x512 xx,
    fun xx => piece_spec (k0_pay2 (View.ld x0 r0_0)) A hA 5 32 34 0 33 rfl rfl rfl
      inb_S1x8x256x512_S1x1x32x512_0_5_32_0 slices_S32x258x514_o0_34_0_S32x32x512 slices_S32x258x514_o0_33_1_S32x32x512 xx,
    fun xx => piece_spec (k0_pay2 (View.ld x0 r0_0)) A hA 4 32 33 2 33 rfl rfl rfl
      inb_S1x8x256x512_S1x1x32x512_0_4_32_0 slices_S32x258x514_o0_33_2_S32x32x512 slices_S32x258x514_o0_33_1_S32x32x512 xx,
    fun xx => piece_spec (k0_pay2 (View.ld x0 r0_0)) A hA 3 32 33 0 33 rfl rfl rfl
      inb_S1x8x256x512_S1x1x32x512_0_3_32_0 slices_S32x258x514_o0_33_0_S32x32x512 slices_S32x258x514_o0_33_1_S32x32x512 xx,
    fun xx => piece_spec (k0_pay2 (View.ld x0 r0_0)) A hA 2 32 32 2 33 rfl rfl rfl
      inb_S1x8x256x512_S1x1x32x512_0_2_32_0 slices_S32x258x514_o0_32_2_S32x32x512 slices_S32x258x514_o0_33_1_S32x32x512 xx,
    fun xx => piece_spec (k0_pay2 (View.ld x0 r0_0)) A hA 1 32 32 1 33 rfl rfl rfl
      inb_S1x8x256x512_S1x1x32x512_0_1_32_0 slices_S32x258x514_o0_32_1_S32x32x512 slices_S32x258x514_o0_33_1_S32x32x512 xx,
    fun xx => piece_spec (k0_pay2 (View.ld x0 r0_0)) A hA 0 32 32 0 33 rfl rfl rfl
      inb_S1x8x256x512_S1x1x32x512_0_0_32_0 slices_S32x258x514_o0_32_0_S32x32x512 slices_S32x258x514_o0_33_1_S32x32x512 xx,
    fun xx => piece_spec (k0_pay2 (View.ld x0 r0_0)) A hA 7 0 2 2 1 rfl rfl rfl
      inb_S1x8x256x512_S1x1x32x512_0_7_0_0 slices_S32x258x514_o0_2_2_S32x32x512 slices_S32x258x514_o0_1_1_S32x32x512 xx,
    fun xx => piece_spec (k0_pay2 (View.ld x0 r0_0)) A hA 6 0 2 1 1 rfl rfl rfl
      inb_S1x8x256x512_S1x1x32x512_0_6_0_0 slices_S32x258x514_o0_2_1_S32x32x512 slices_S32x258x514_o0_1_1_S32x32x512 xx,
    fun xx => piece_spec (k0_pay2 (View.ld x0 r0_0)) A hA 5 0 2 0 1 rfl rfl rfl
      inb_S1x8x256x512_S1x1x32x512_0_5_0_0 slices_S32x258x514_o0_2_0_S32x32x512 slices_S32x258x514_o0_1_1_S32x32x512 xx,
    fun xx => piece_spec (k0_pay2 (View.ld x0 r0_0)) A hA 4 0 1 2 1 rfl rfl rfl
      inb_S1x8x256x512_S1x1x32x512_0_4_0_0 slices_S32x258x514_o0_1_2_S32x32x512 slices_S32x258x514_o0_1_1_S32x32x512 xx,
    fun xx => piece_spec (k0_pay2 (View.ld x0 r0_0)) A hA 3 0 1 0 1 rfl rfl rfl
      inb_S1x8x256x512_S1x1x32x512_0_3_0_0 slices_S32x258x514_o0_1_0_S32x32x512 slices_S32x258x514_o0_1_1_S32x32x512 xx,
    fun xx => piece_spec (k0_pay2 (View.ld x0 r0_0)) A hA 2 0 0 2 1 rfl rfl rfl
      inb_S1x8x256x512_S1x1x32x512_0_2_0_0 slices_S32x258x514_o0_0_2_S32x32x512 slices_S32x258x514_o0_1_1_S32x32x512 xx,
    fun xx => piece_spec (k0_pay2 (View.ld x0 r0_0)) A hA 1 0 0 1 1 rfl rfl rfl
      inb_S1x8x256x512_S1x1x32x512_0_1_0_0 slices_S32x258x514_o0_0_1_S32x32x512 slices_S32x258x514_o0_1_1_S32x32x512 xx,
    fun xx => piece_spec (k0_pay2 (View.ld x0 r0_0)) A hA 0 0 0 0 1 rfl rfl rfl
      inb_S1x8x256x512_S1x1x32x512_0_0_0_0 slices_S32x258x514_o0_0_0_S32x32x512 slices_S32x258x514_o0_1_1_S32x32x512 xx⟩

end Cert.Affinity.Kern

end
-- ==== Proof.KernelValue.lean ====
/-
  From the blocks to the whole result array.

  The grid has one point per batch entry. Point t reads block t of the zero-padded input (which the host writes before
  the region: `V_padded`, `iblk_apply`), so its normalised block is the padded raw input of batch entry t normalised
  afterwards (`block_nrm`), and what it writes back is block t of `G` of the argument (`flushed_eq`). The four blocks
  cover the result array (`cover`), so the array ends holding `G` of the argument (`final`, `run`).
-/
import proofs.«167821_j5076651344326_1_alg».proof.Proof.Gen.KernelIdeal.Value
import proofs.«167821_j5076651344326_1_alg».proof.Proof.KernelBlock
import Idealize.ShloMosaic.Lib.Pipeline.Value
import Idealize.ShloMosaic.Lib.StableHlo.Run
import Idealize.ShloMosaic.Lib.Tactic

noncomputable section

namespace Cert.Affinity.Kern

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Affinity

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The argument array on core `c`, as a function of its index. -/
abbrev argX (c : Dev nD) : SIn.Idx → EReal := m ((c : Thread nD τ).loc main_arg0)

/-- A grid point as a batch entry. -/
def tb (t : Fin cfg0.N) : Fin 4 := ⟨t.val, by have hN : cfg0.N = 4 := N_0; have := t.isLt; omega⟩

/-- The printed index maps, decided over the grid: both windows' block index at point t is (t, 0, 0, 0). -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The padding value, the integer 0 converted to a float, is the extended real 0. -/
theorem pad_value : (sitofp (F := Ideal) .f32 (constantI S_ 32 0#32) : S_.Idx → EReal) ix0 = 0 := by
  show (((0#32 : BitVec 32).toInt : ℝ) : EReal) = 0
  simp

/-- The array the region's input window stages: the argument surrounded by one ring of zeros (the host's pad). -/
theorem V_padded (c : Dev nD) :
    (V m c main_v0 : S4x32x258x514.Idx → EReal)
      = pad S4x32x258x514 ![0, 0, 1, 1] ![0, 0, 1, 1] ![0, 0, 0, 0] (argX m c)
          (sitofp (F := Ideal) .f32 (constantI S_ 32 0#32)) pads_S4x32x256x512_S4x32x258x514_000_000_110_110 h_S_ := by
  dsimp only [Gen.V]
  simp only [Gen.hostOps0, Gen.hostOps0_1, List.flatten_cons, List.flatten_nil, List.append_nil, List.cons_append,
    List.nil_append]
  after_results
  rfl

/-- The input block at point t, at (·, c, y, x), is the zero-padded argument at (t, c, y, x). -/
theorem iblk_apply (c : Dev nD) (t : Fin cfg0.N) (cc : Fin 32) (y : Fin 258) (x : Fin 514) :
    (iblk m c 0 t : Vec Ideal S1x32x258x514 .f32) (ix4 (0 : Fin 1) cc y x)
      = padAt (argX m c) 0 (tb t) cc y.val x.val := by
  obtain ⟨e0, e1, e2, e3, -⟩ := idx_facts t
  unfold iblk
  rw [View.read_apply]
  show (V m c main_v0 : S4x32x258x514.Idx → EReal) _ = _
  rw [V_padded m c]
  have ek : ((((cfg0.win 0).blk t).view.emb (ix4 (0 : Fin 1) cc y x)) : S4x32x258x514.Idx) = ix4 (tb t) cc y x := by
    funext a; apply Fin.ext
    match a with
    | ⟨0, _⟩ => show win0_0.index t (0 : Fin 4) * 1 + 1 * 0 = t.val; omega
    | ⟨1, _⟩ => show win0_0.index t (1 : Fin 4) * 32 + 1 * cc.val = cc.val; omega
    | ⟨2, _⟩ => show win0_0.index t (2 : Fin 4) * 258 + 1 * y.val = y.val; omega
    | ⟨3, _⟩ => show win0_0.index t (3 : Fin 4) * 514 + 1 * x.val = x.val; omega
  refine (congrArg _ ek).trans ?_
  rw [pad_apply, pad_value]

/-- The normalised block at point t is the padded raw input of batch entry t, normalised afterwards. -/
theorem block_nrm (c : Dev nD) (t : Fin cfg0.N) (cc : Fin 32) (y : Fin 258) (x : Fin 514) :
    k0_pay2 (F := Ideal) (View.ld (iblk m c 0 t) r0_0) (ix3 cc y x) = nrmPad (argX m c) (tb t) cc y.val x.val := by
  rw [View.ld_unit_zero (S := S1x32x258x514) hz4]
  refine (feat_apply (iblk m c 0 t) cc y x).trans ?_
  unfold nrmPad
  exact congrArg₂ unit (iblk_apply m c t cc y x)
    (Finset.sum_congr rfl fun c' _ => congrArg₂ (· * ·) (iblk_apply m c t c' y x) (iblk_apply m c t c' y x))

/-- `Gblk` of batch entry t's normalised padded block, at a block index, is `G` at the array index with the same
    coordinates and batch coordinate t. -/
theorem Gblk_at (x : SIn.Idx → EReal) (t : Fin 4) (j : S1x8x256x512.Idx) (i : SOut.Idx)
    (h0 : (i 0).val = t.val) (h1 : (i 1).val = (j 1).val) (h2 : (i 2).val = (j 2).val) (h3 : (i 3).val = (j 3).val) :
    Gblk (nrmPad x t) j = G x i := by
  obtain ⟨u, k, h, w, rfl⟩ : ∃ u k h w, j = ix4 u k h w := ⟨j 0, j 1, j 2, j 3, eq_ix4 j⟩
  obtain ⟨b, k', h', w', rfl⟩ : ∃ b k' h' w', i = ix4 b k' h' w' := ⟨i 0, i 1, i 2, i 3, eq_ix4 i⟩
  obtain rfl : b = t := Fin.ext h0
  obtain rfl : k' = k := Fin.ext h1
  obtain rfl : h' = h := Fin.ext h2
  obtain rfl : w' = w := Fin.ext h3
  exact Gblk_nrmPad x b u k' h' w'

/-- WHAT POINT t WRITES BACK is block t of `G` of the argument. -/
theorem flushed_eq (c : Dev nD) (t : Fin cfg0.N) :
    (dats m 0 c).flushed 1 t = ((cfg0.win 1).blk t).view.read (Elt Ideal) (G (argX m c)) := by
  obtain ⟨-, -, -, -, e0, e1, e2, e3⟩ := idx_facts t
  rw [Value.flushed1]
  funext j
  show out0_1 (iblk m c 0 t) j = G (argX m c) (((cfg0.win 1).blk t).view.emb j)
  rw [out_apply (iblk m c 0 t) (nrmPad (argX m c) (tb t)) (block_nrm m c t) j]
  have j1 : (j 1).val < 8 := (j 1).isLt
  have j2 : (j 2).val < 256 := (j 2).isLt
  have j3 : (j 3).val < 512 := (j 3).isLt
  have j0 : (j 0).val < 1 := (j 0).isLt
  refine Gblk_at (argX m c) (tb t) j _ ?_ ?_ ?_ ?_
  · show win0_1.index t (0 : Fin 4) * 1 + 1 * (j 0).val = t.val; omega
  · show win0_1.index t (1 : Fin 4) * 8 + 1 * (j 1).val = (j 1).val; omega
  · show win0_1.index t (2 : Fin 4) * 256 + 1 * (j 2).val = (j 2).val; omega
  · show win0_1.index t (3 : Fin 4) * 512 + 1 * (j 3).val = (j 3).val; omega

/-- An index of the result array is in point t's block iff each coordinate is in the block's range on its axis. -/
theorem mem_blk (t : Fin cfg0.N) (i : S4x8x256x512.Idx) :
    i ∈ ((cfg0.win 1).blk t).view.set ↔ ∀ a : Fin 4, win0_1.index t a * S1x8x256x512.size a ≤ (i a).val
      ∧ (i a).val < win0_1.index t a * S1x8x256x512.size a + S1x8x256x512.size a := by
  show i ∈ ((View.whole main_v1).slice (win0_1.rect t)).set ↔ _
  rw [View.set_slice_whole, Rect.mem_set_unit]
  exact Iff.rfl

/-- Every index of the result array is in the block of the point its batch coordinate names. -/
theorem cover (i : S4x8x256x512.Idx) :
    ∃ t : Fin cfg0.N, (cfg0.win 1).flush t = true ∧ i ∈ ((cfg0.win 1).blk t).view.set := by
  have hN : cfg0.N = 4 := N_0
  have hN' : grid0.N = 4 := N_0
  have i0 : (i 0).val < 4 := (i 0).isLt
  have i1 : (i 1).val < 8 := (i 1).isLt
  have i2 : (i 2).val < 256 := (i 2).isLt
  have i3 : (i 3).val < 512 := (i 3).isLt
  refine ⟨⟨(i 0).val, by omega⟩, flush0_1 _, ?_⟩
  obtain ⟨-, -, -, -, e0, e1, e2, e3⟩ := idx_facts ⟨(i 0).val, by omega⟩
  have e0' : win0_1.index ⟨(i 0).val, by omega⟩ (0 : Fin 4) = (i 0).val := e0
  rw [mem_blk]
  intro a
  match a with
  | ⟨0, _⟩ =>
    show win0_1.index ⟨(i 0).val, _⟩ (0 : Fin 4) * 1 ≤ (i 0).val
      ∧ (i 0).val < win0_1.index ⟨(i 0).val, _⟩ (0 : Fin 4) * 1 + 1
    omega
  | ⟨1, _⟩ =>
    show win0_1.index ⟨(i 0).val, _⟩ (1 : Fin 4) * 8 ≤ (i 1).val
      ∧ (i 1).val < win0_1.index ⟨(i 0).val, _⟩ (1 : Fin 4) * 8 + 8
    omega
  | ⟨2, _⟩ =>
    show win0_1.index ⟨(i 0).val, _⟩ (2 : Fin 4) * 256 ≤ (i 2).val
      ∧ (i 2).val < win0_1.index ⟨(i 0).val, _⟩ (2 : Fin 4) * 256 + 256
    omega
  | ⟨3, _⟩ =>
    show win0_1.index ⟨(i 0).val, _⟩ (3 : Fin 4) * 512 ≤ (i 3).val
      ∧ (i 3).val < win0_1.index ⟨(i 0).val, _⟩ (3 : Fin 4) * 512 + 512
    omega

/-- THE RESULT ARRAY after the run is `G` of the argument. -/
theorem final (c : Dev nD) : (dats m 0 c).arrAt 1 cfg0.N = G (argX m c) :=
  (dats m 0 c).arrAt_eq_of_cover 1 (G (argX m c)) (fun t _ => flushed_eq m c t) (cover)

/-- The kernel's run, read: the result array at `G` of the argument, the argument unchanged. -/
theorem run : θ_run defs (onTc (τ := τ) (main (F := Ideal))) ⟨m, fun _ => 0, ρ⟩ fun r => ∀ c : Dev nD,
      r.2.mem ((c : Thread nD τ).loc main_v1) = G (argX m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Affinity.Kern

end
-- ==== Proof.RefRead.lean ====
/-
  The reference program computes `G` (Spec.lean).

  Read one operation at a time: it normalises the input (`ref_nrm`), surrounds the normalised array with a ring of
  zeros, cuts the eight blocks of the input's extents that start at the window's eight non-central positions, multiplies
  each by the normalised array and sums over the channels (`nb_sum`: one lemma for the eight, the start position a
  parameter), stacks the eight sums along a new second axis (`cat_apply`) and replaces the negative entries by zero.
-/
import proofs.«167821_j5076651344326_1_alg».proof.Proof.RefStages
import proofs.«167821_j5076651344326_1_alg».proof.Proof.Spec
import Idealize.ShloMosaic.Lib.ValueIdx
import Idealize.ShloMosaic.Lib.Pipeline.Value
import Idealize.ShloMosaic.PureOps.Ideal.Laws

noncomputable section

namespace Cert.Affinity.Ref

open Cert.ReferenceIdeal Cert.ReferenceIdeal.Gen Cert.ReferenceIdeal.Read Idealize.ShloMosaic Idealize.ShloMosaic.ValueIdx
open Cert.Affinity

/-- The input array's contents at the extended reals. -/
abbrev X : Type := (⟨S4x32x256x512, .f32⟩ : BufTy).Contents (Elt Ideal)

/-- The reference's quotient x / max(√(0 + Σ_c x²), ε), broadcast back over the channels, is the normalised input. -/
theorem ref_nrm (x0 : X) : val_main_v7 (F := Ideal) x0 = nrm x0 := by
  funext i
  have e : ∀ k : Fin 32, idx_main_v1 (idx_main_v2 (idx_main_v6 i)) k = ix4 (i 0) k (i 2) (i 3) := fun k =>
    funext fun a => Fin.ext (by match a with | ⟨0, _⟩ => rfl | ⟨1, _⟩ => rfl | ⟨2, _⟩ => rfl | ⟨3, _⟩ => rfl)
  rw [val_main_v7_apply, val_main_v6_apply, val_main_v5_apply, val_main_v3_apply, val_main_v4_apply,
    val_main_cst_0_apply, val_main_v2_apply, val_main_v1_apply, val_main_cst_apply]
  simp only [val_main_v0_apply, e, Ideal.hostDivf_def, Ideal.hostUnary_sqrt_def, Ideal.maximumf_def, Ideal.mulf_def,
    Ideal.ofBits_def, Ideal.ofBits_zero_f32, zero_add]
  rfl

/-- The padding value, the integer 0 converted to a float, is the extended real 0. -/
theorem pad_zero : val_main_call0_v0 (F := Ideal) ix0 = 0 := by
  show (((0#32 : BitVec 32).toInt : ℝ) : EReal) = 0
  simp

/-- ONE NEIGHBOUR: the block of the padded normalised array that starts at (0, 0, i, j), times the normalised array,
    summed over the channels from the initial value 0, at pixel (b, h, w). -/
theorem nb_sum (x0 : X) (start : Fin 4 → Int) (i j : ℕ) (hi : i ≤ 2) (hj : j ≤ 2)
    (hstart : ∀ a, start a = ((![0, 0, i, j] : Fin 4 → ℕ) a : Int)) (b : Fin 4) (h : Fin 256) (w : Fin 512) :
    Host.reduceAdd
        (mulf (Host.dynamicSlice S4x32x256x512 (val_main_v8 (F := Ideal) x0) start sliceFits_S4x32x258x514_S4x32x256x512)
          (val_main_v7 (F := Ideal) x0))
        (constant (F := Ideal) S_ .f32 0x00000000#32) reducesTo_S4x32x256x512_S4x256x512_d1 h_S_ (ix3 b h w)
      = ∑ c : Fin 32, padAt (nrm x0) 0 b c (h.val + i) (w.val + j) * nrm x0 (ix4 b c h w) := by
  have hr : S4x32x256x512.Reduces [1] S4x256x512 := by decide
  have e : ∀ c : Fin 32, hr.lift (ix3 b h w) c = ix4 b c h w := fun c =>
    funext fun a => Fin.ext (by match a with | ⟨0, _⟩ => rfl | ⟨1, _⟩ => rfl | ⟨2, _⟩ => rfl | ⟨3, _⟩ => rfl)
  simp only [Host.reduceAdd, Ideal.hostReduceAdd_def]
  rw [Ideal.hostReduceAdd_single reducesTo_S4x32x256x512_S4x256x512_d1 hr]
  rw [show (constant (F := Ideal) S_ .f32 0x00000000#32) (Shape.Idx.first h_S_) = 0 from Ideal.ofBits_zero_f32, zero_add]
  refine Finset.sum_congr rfl fun (c : Fin 32) _ => ?_
  rw [e c, mulf_apply]
  unfold val_main_v8
  refine congrArg₂ (· * ·) ?_ (congrFun (ref_nrm x0) (ix4 b c h w))
  refine (slice_pad_apply (val_main_v7 (F := Ideal) x0) (val_main_call0_v0 (F := Ideal)) _ _ _ start i j hi hj hstart
    b c h w).trans ?_
  rw [ref_nrm, pad_zero]

/-! The eight neighbours, in the window's order with the centre left out. -/

theorem nb0 (x0 : X) (b : Fin 4) (h : Fin 256) (w : Fin 512) :
    val_main_v11 (F := Ideal) x0 (ix3 b h w)
      = ∑ c : Fin 32, padAt (nrm x0) 0 b c (h.val + di 0) (w.val + dj 0) * nrm x0 (ix4 b c h w) :=
  nb_sum x0 _ (di 0) (dj 0) (by decide) (by decide)
    (fun a => by match a with | ⟨0, _⟩ => rfl | ⟨1, _⟩ => rfl | ⟨2, _⟩ => rfl | ⟨3, _⟩ => rfl) b h w

theorem nb1 (x0 : X) (b : Fin 4) (h : Fin 256) (w : Fin 512) :
    val_main_v14 (F := Ideal) x0 (ix3 b h w)
      = ∑ c : Fin 32, padAt (nrm x0) 0 b c (h.val + di 1) (w.val + dj 1) * nrm x0 (ix4 b c h w) :=
  nb_sum x0 _ (di 1) (dj 1) (by decide) (by decide)
    (fun a => by match a with | ⟨0, _⟩ => rfl | ⟨1, _⟩ => rfl | ⟨2, _⟩ => rfl | ⟨3, _⟩ => rfl) b h w

theorem nb2 (x0 : X) (b : Fin 4) (h : Fin 256) (w : Fin 512) :
    val_main_v17 (F := Ideal) x0 (ix3 b h w)
      = ∑ c : Fin 32, padAt (nrm x0) 0 b c (h.val + di 2) (w.val + dj 2) * nrm x0 (ix4 b c h w) :=
  nb_sum x0 _ (di 2) (dj 2) (by decide) (by decide)
    (fun a => by match a with | ⟨0, _⟩ => rfl | ⟨1, _⟩ => rfl | ⟨2, _⟩ => rfl | ⟨3, _⟩ => rfl) b h w

theorem nb3 (x0 : X) (b : Fin 4) (h : Fin 256) (w : Fin 512) :
    val_main_v20 (F := Ideal) x0 (ix3 b h w)
      = ∑ c : Fin 32, padAt (nrm x0) 0 b c (h.val + di 3) (w.val + dj 3) * nrm x0 (ix4 b c h w) :=
  nb_sum x0 _ (di 3) (dj 3) (by decide) (by decide)
    (fun a => by match a with | ⟨0, _⟩ => rfl | ⟨1, _⟩ => rfl | ⟨2, _⟩ => rfl | ⟨3, _⟩ => rfl) b h w

theorem nb4 (x0 : X) (b : Fin 4) (h : Fin 256) (w : Fin 512) :
    val_main_v23 (F := Ideal) x0 (ix3 b h w)
      = ∑ c : Fin 32, padAt (nrm x0) 0 b c (h.val + di 4) (w.val + dj 4) * nrm x0 (ix4 b c h w) :=
  nb_sum x0 _ (di 4) (dj 4) (by decide) (by decide)
    (fun a => by match a with | ⟨0, _⟩ => rfl | ⟨1, _⟩ => rfl | ⟨2, _⟩ => rfl | ⟨3, _⟩ => rfl) b h w

theorem nb5 (x0 : X) (b : Fin 4) (h : Fin 256) (w : Fin 512) :
    val_main_v26 (F := Ideal) x0 (ix3 b h w)
      = ∑ c : Fin 32, padAt (nrm x0) 0 b c (h.val + di 5) (w.val + dj 5) * nrm x0 (ix4 b c h w) :=
  nb_sum x0 _ (di 5) (dj 5) (by decide) (by decide)
    (fun a => by match a with | ⟨0, _⟩ => rfl | ⟨1, _⟩ => rfl | ⟨2, _⟩ => rfl | ⟨3, _⟩ => rfl) b h w

theorem nb6 (x0 : X) (b : Fin 4) (h : Fin 256) (w : Fin 512) :
    val_main_v29 (F := Ideal) x0 (ix3 b h w)
      = ∑ c : Fin 32, padAt (nrm x0) 0 b c (h.val + di 6) (w.val + dj 6) * nrm x0 (ix4 b c h w) :=
  nb_sum x0 _ (di 6) (dj 6) (by decide) (by decide)
    (fun a => by match a with | ⟨0, _⟩ => rfl | ⟨1, _⟩ => rfl | ⟨2, _⟩ => rfl | ⟨3, _⟩ => rfl) b h w

theorem nb7 (x0 : X) (b : Fin 4) (h : Fin 256) (w : Fin 512) :
    val_main_v32 (F := Ideal) x0 (ix3 b h w)
      = ∑ c : Fin 32, padAt (nrm x0) 0 b c (h.val + di 7) (w.val + dj 7) * nrm x0 (ix4 b c h w) :=
  nb_sum x0 _ (di 7) (dj 7) (by decide) (by decide)
    (fun a => by match a with | ⟨0, _⟩ => rfl | ⟨1, _⟩ => rfl | ⟨2, _⟩ => rfl | ⟨3, _⟩ => rfl) b h w

/-- Piece `k` of the stack along the second axis, read at (b, k, h, w), is that piece at (b, 0, h, w). -/
theorem cat_piece (x0 : X) (b : Fin 4) (h : Fin 256) (w : Fin 512) (k : ℕ) (hk8 : k < 8)
    (y : S4x1x256x512.Idx → EReal)
    (hxk : ([⟨S4x1x256x512, val_main_v33 (F := Ideal) x0⟩, ⟨S4x1x256x512, val_main_v34 (F := Ideal) x0⟩,
        ⟨S4x1x256x512, val_main_v35 (F := Ideal) x0⟩, ⟨S4x1x256x512, val_main_v36 (F := Ideal) x0⟩,
        ⟨S4x1x256x512, val_main_v37 (F := Ideal) x0⟩, ⟨S4x1x256x512, val_main_v38 (F := Ideal) x0⟩,
        ⟨S4x1x256x512, val_main_v39 (F := Ideal) x0⟩, ⟨S4x1x256x512, val_main_v40 (F := Ideal) x0⟩] :
          List ((s : Shape) × (s.Idx → EReal)))[k]'(by simpa using hk8) = ⟨S4x1x256x512, y⟩) :
    val_main_v41 (F := Ideal) x0 (ix4 b ⟨k, hk8⟩ h w) = y (ix4 b (0 : Fin 1) h w) := by
  unfold val_main_v41
  refine concatenate_apply_piece (1 : Fin S4x8x256x512.rank) _ _ _ k (by simpa using hk8) S4x1x256x512 y hxk rfl k ?_
    (ix4 b (0 : Fin 1) h w) ?_ ?_
  · interval_cases k <;> rfl
  · intro a ha
    match a with
    | ⟨0, _⟩ => rfl
    | ⟨1, _⟩ => exact absurd rfl ha
    | ⟨2, _⟩ => rfl
    | ⟨3, _⟩ => rfl
  · show k + 0 = k
    omega

/-- The stacked array at (b, k, h, w) is neighbour `k`'s channel sum at pixel (b, h, w). -/
theorem cat_apply (x0 : X) (b : Fin 4) (k : Fin 8) (h : Fin 256) (w : Fin 512) :
    val_main_v41 (F := Ideal) x0 (ix4 b k h w)
      = ∑ c : Fin 32, padAt (nrm x0) 0 b c (h.val + di k.val) (w.val + dj k.val) * nrm x0 (ix4 b c h w) := by
  match k with
  | ⟨0, hk⟩ =>
    rw [cat_piece x0 b h w 0 hk (val_main_v33 (F := Ideal) x0) rfl, val_main_v33_apply,
      show idx_main_v33 (ix4 b (0 : Fin 1) h w) = ix3 b h w from
        funext fun a => Fin.ext (by match a with | ⟨0, _⟩ => rfl | ⟨1, _⟩ => rfl | ⟨2, _⟩ => rfl)]
    exact nb0 x0 b h w
  | ⟨1, hk⟩ =>
    rw [cat_piece x0 b h w 1 hk (val_main_v34 (F := Ideal) x0) rfl, val_main_v34_apply,
      show idx_main_v34 (ix4 b (0 : Fin 1) h w) = ix3 b h w from
        funext fun a => Fin.ext (by match a with | ⟨0, _⟩ => rfl | ⟨1, _⟩ => rfl | ⟨2, _⟩ => rfl)]
    exact nb1 x0 b h w
  | ⟨2, hk⟩ =>
    rw [cat_piece x0 b h w 2 hk (val_main_v35 (F := Ideal) x0) rfl, val_main_v35_apply,
      show idx_main_v35 (ix4 b (0 : Fin 1) h w) = ix3 b h w from
        funext fun a => Fin.ext (by match a with | ⟨0, _⟩ => rfl | ⟨1, _⟩ => rfl | ⟨2, _⟩ => rfl)]
    exact nb2 x0 b h w
  | ⟨3, hk⟩ =>
    rw [cat_piece x0 b h w 3 hk (val_main_v36 (F := Ideal) x0) rfl, val_main_v36_apply,
      show idx_main_v36 (ix4 b (0 : Fin 1) h w) = ix3 b h w from
        funext fun a => Fin.ext (by match a with | ⟨0, _⟩ => rfl | ⟨1, _⟩ => rfl | ⟨2, _⟩ => rfl)]
    exact nb3 x0 b h w
  | ⟨4, hk⟩ =>
    rw [cat_piece x0 b h w 4 hk (val_main_v37 (F := Ideal) x0) rfl, val_main_v37_apply,
      show idx_main_v37 (ix4 b (0 : Fin 1) h w) = ix3 b h w from
        funext fun a => Fin.ext (by match a with | ⟨0, _⟩ => rfl | ⟨1, _⟩ => rfl | ⟨2, _⟩ => rfl)]
    exact nb4 x0 b h w
  | ⟨5, hk⟩ =>
    rw [cat_piece x0 b h w 5 hk (val_main_v38 (F := Ideal) x0) rfl, val_main_v38_apply,
      show idx_main_v38 (ix4 b (0 : Fin 1) h w) = ix3 b h w from
        funext fun a => Fin.ext (by match a with | ⟨0, _⟩ => rfl | ⟨1, _⟩ => rfl | ⟨2, _⟩ => rfl)]
    exact nb5 x0 b h w
  | ⟨6, hk⟩ =>
    rw [cat_piece x0 b h w 6 hk (val_main_v39 (F := Ideal) x0) rfl, val_main_v39_apply,
      show idx_main_v39 (ix4 b (0 : Fin 1) h w) = ix3 b h w from
        funext fun a => Fin.ext (by match a with | ⟨0, _⟩ => rfl | ⟨1, _⟩ => rfl | ⟨2, _⟩ => rfl)]
    exact nb6 x0 b h w
  | ⟨7, hk⟩ =>
    rw [cat_piece x0 b h w 7 hk (val_main_v40 (F := Ideal) x0) rfl, val_main_v40_apply,
      show idx_main_v40 (ix4 b (0 : Fin 1) h w) = ix3 b h w from
        funext fun a => Fin.ext (by match a with | ⟨0, _⟩ => rfl | ⟨1, _⟩ => rfl | ⟨2, _⟩ => rfl)]
    exact nb7 x0 b h w

/-- THE REFERENCE'S RESULT is `G` of its argument. -/
theorem ref_eq (x0 : X) : val_main_v44 (F := Ideal) x0 = G x0 := by
  funext i
  obtain ⟨b, k, h, w, rfl⟩ : ∃ b k h w, i = ix4 b k h w := ⟨i 0, i 1, i 2, i 3, eq_ix4 i⟩
  rw [val_main_v44_apply, val_main_v43_apply, val_main_call1_v0_apply, val_main_v42_apply, val_main_cst_41_apply,
    val_main_cst_42_apply, cat_apply x0 b k h w]
  rfl

end Cert.Affinity.Ref

end
-- ==== Proof.LibLiteralOperands.lean ====
/-
  A result lemma for a host operation whose index operands are a LITERAL vector of references, in the style of the
  library's `nary4_result'`: the result with each index operand's contents AT ITS OWN REFERENCE (`Fin.cons (F ↑x₀) …`)
  instead of under a binder (`fun k => F ↑(![x₀, …] k)`), so that a simp pass over a straight-line host program goes on
  rewriting the index operands' contents (under the binder the reference `![x₀, …] k` is no literal and no result lemma
  applies to it). `unaryIndexed4_result'`: an operation of one array and four rank-zero index operands — a
  `dynamic_slice` of a rank-4 array.
-/
import Idealize.ShloMosaic.Lib.StableHlo.Run

namespace Cert.LibLiteralOperands

open Idealize.ShloMosaic Idealize.ShloMosaic.StableHlo Idealize.SL.Sem

variable {τ : Topo} {sig : RefSig} {Val : EltTy → Type}
variable {a y x0 x1 x2 x3 : Ref sig .tc}

/-- An operation of one array and four index operands: the result at its own buffer, each index operand read at its own
    reference (moved to the common index type, the identity at a literal reference). -/
theorem unaryIndexed4_result' (T : BufTy)
    (f : a.ty.Contents Val → (Fin 4 → T.Contents Val) → y.ty.Contents Val) (hT ha hix hy) (F : Valuation τ sig Val) :
    (unaryIndexed (τ := τ) a ![x0, x1, x2, x3] T y f hT ha hix hy).result F (no_index (Proc.devRef .tc y))
      = f (F (Proc.devRef .tc a))
          (Fin.cons (cast (congrArg (fun U : BufTy => U.Contents Val) (hT 0)) (F (Proc.devRef .tc x0)))
          (Fin.cons (cast (congrArg (fun U : BufTy => U.Contents Val) (hT 1)) (F (Proc.devRef .tc x1)))
          (Fin.cons (cast (congrArg (fun U : BufTy => U.Contents Val) (hT 2)) (F (Proc.devRef .tc x2)))
          (Fin.cons (cast (congrArg (fun U : BufTy => U.Contents Val) (hT 3)) (F (Proc.devRef .tc x3)))
            (fun i => i.elim0))))) := by
  rw [unaryIndexed_result]; congr 1; funext k; fin_cases k <;> rfl

end Cert.LibLiteralOperands
-- ==== Proof.RefRun.lean ====
/-
  The reference program's run, read back stage by stage.

  The program is a straight line of 92 host operations, so after any weakly fair execution every buffer holds the fold
  of the operations' results over the launch contents (the library's `run_seq`). The result buffer is read off that fold
  in two steps. First the valuation `W` after the first 84 operations — everything up to the eight channel sums, each
  broadcast to a unit second axis — is named, and `W` is read at those eight buffers: each holds its stage of the
  argument (the eight start positions of the blocks cut from the padded array are literal index operands, read one by
  one). Then the last eight operations — the stack of the eight along the second axis, the comparison with zero and the
  select — are run over `W` as an opaque valuation, and the eight operands are replaced by their stages.
-/
import proofs.«167821_j5076651344326_1_alg».proof.Proof.RefOps
import proofs.«167821_j5076651344326_1_alg».proof.Proof.RefStages
import proofs.«167821_j5076651344326_1_alg».proof.Proof.LibLiteralOperands

noncomputable section

namespace Cert.Affinity.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 8192 in
set_option maxHeartbeats 4000000 in
/-- After the program's operations the result buffer holds the last stage of the argument's launch contents. -/
theorem result_eq (m : (ℓ : Loc nD τ sig) → Buf (Elt F) ℓ) (c : Dev nD) :
    after (ops (F := F)) (launchContents m c) (Proc.devRef .tc main_v44)
      = val_main_v44 (F := F) (m ((c.tc : Thread nD τ).loc main_arg0)) := by
  simp only [after_cons, after_nil]
  generalize hW : (unary main_v32 main_v40 _ _ _).result _ = W
  have h33 : W (Proc.devRef .tc main_v33) = val_main_v33 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h34 : W (Proc.devRef .tc main_v34) = val_main_v34 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h35 : W (Proc.devRef .tc main_v35) = val_main_v35 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h36 : W (Proc.devRef .tc main_v36) = val_main_v36 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h37 : W (Proc.devRef .tc main_v37) = val_main_v37 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h38 : W (Proc.devRef .tc main_v38) = val_main_v38 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h39 : W (Proc.devRef .tc main_v39) = val_main_v39 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  have h40 : W (Proc.devRef .tc main_v40) = val_main_v40 (F := F) (m ((c.tc : Thread nD τ).loc main_arg0)) := by
    rw [← hW]
    simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
    rfl
  simp (disch := decide) only [after_cons, after_nil,
    nullary_result', unary_result', binary_result', ternary_result', quaternary_result', reshape_result', nary4_result', nary_result',
    Cert.LibLiteralOperands.unaryIndexed4_result', binaryIndexed_result',
    nullary_result_ne', unary_result_ne', binary_result_ne', ternary_result_ne', quaternary_result_ne', reshape_result_ne',
    nary_result_ne', unaryIndexed_result_ne', binaryIndexed_result_ne']
  have e0 : W (Proc.devRef .tc ((![main_v33, main_v34, main_v35, main_v36, main_v37, main_v38, main_v39, main_v40] : Fin 8 → Ref sig .tc) 0))
      = val_main_v33 (F := F) (m ((c.tc : Thread nD τ).loc main_arg0)) := h33
  have e1 : W (Proc.devRef .tc ((![main_v33, main_v34, main_v35, main_v36, main_v37, main_v38, main_v39, main_v40] : Fin 8 → Ref sig .tc) 1))
      = val_main_v34 (F := F) (m ((c.tc : Thread nD τ).loc main_arg0)) := h34
  have e2 : W (Proc.devRef .tc ((![main_v33, main_v34, main_v35, main_v36, main_v37, main_v38, main_v39, main_v40] : Fin 8 → Ref sig .tc) 2))
      = val_main_v35 (F := F) (m ((c.tc : Thread nD τ).loc main_arg0)) := h35
  have e3 : W (Proc.devRef .tc ((![main_v33, main_v34, main_v35, main_v36, main_v37, main_v38, main_v39, main_v40] : Fin 8 → Ref sig .tc) 3))
      = val_main_v36 (F := F) (m ((c.tc : Thread nD τ).loc main_arg0)) := h36
  have e4 : W (Proc.devRef .tc ((![main_v33, main_v34, main_v35, main_v36, main_v37, main_v38, main_v39, main_v40] : Fin 8 → Ref sig .tc) 4))
      = val_main_v37 (F := F) (m ((c.tc : Thread nD τ).loc main_arg0)) := h37
  have e5 : W (Proc.devRef .tc ((![main_v33, main_v34, main_v35, main_v36, main_v37, main_v38, main_v39, main_v40] : Fin 8 → Ref sig .tc) 5))
      = val_main_v38 (F := F) (m ((c.tc : Thread nD τ).loc main_arg0)) := h38
  have e6 : W (Proc.devRef .tc ((![main_v33, main_v34, main_v35, main_v36, main_v37, main_v38, main_v39, main_v40] : Fin 8 → Ref sig .tc) 6))
      = val_main_v39 (F := F) (m ((c.tc : Thread nD τ).loc main_arg0)) := h39
  have e7 : W (Proc.devRef .tc ((![main_v33, main_v34, main_v35, main_v36, main_v37, main_v38, main_v39, main_v40] : Fin 8 → Ref sig .tc) 7))
      = val_main_v40 (F := F) (m ((c.tc : Thread nD τ).loc main_arg0)) := h40
  rw [e0, e1, e2, e3, e4, e5, e6, e7]
  rfl

set_option maxRecDepth 8192 in
set_option maxHeartbeats 4000000 in
/-- No operation writes the argument. -/
theorem arg_eq (m : (ℓ : Loc nD τ sig) → Buf (Elt F) ℓ) (c : Dev nD) :
    after (ops (F := F)) (launchContents m c) (Proc.devRef .tc main_arg0) = m ((c.tc : Thread nD τ).loc main_arg0) := by
  after_results_simp

/-- The reference's run: every weakly fair execution terminates with the result at the last stage of the argument and
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = val_main_v44 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v44).trans (result_eq m c), (h c main_arg0).trans (arg_eq m c)⟩)
    (run_seq scopedRefs_eq scopedSems_eq defs main (fun _ => ops) main_eq (fun _ => ops_sub) m ρ)

end Cert.Affinity.RefRun

end
-- ==== Proof.lean ====
/-
  The proof of the certificate's claim: a kernel that zero-pads the raw input, normalises every channel vector of the
  padded array by max(norm, ε) and takes, for the eight neighbours of each pixel, the channel-wise dot product with the
  pixel's own vector, negative values replaced by zero — against a reference that normalises first and pads afterwards.

  Both programs end with the one function `G` of the argument (Proof/Spec.lean): the kernel by its sixty-four stored
  tiles per batch entry (Proof/KernelPoint.lean, KernelBlock.lean, KernelValue.lean), the reference operation by
  operation (Proof/RefRead.lean). They agree on every extended real because a zero vector normalises to zero; no
  finiteness of the input is used. The kernels' frames are the generated ones, the reference's its run with the result dropped (Proof/RefRun.lean); the
  idealization rewrote nothing.
-/
import proofs.«167821_j5076651344326_1_alg».proof.Defs
import proofs.«167821_j5076651344326_1_alg».proof.Proof.Gen.Kernel
import proofs.«167821_j5076651344326_1_alg».proof.Proof.Gen.Kernel.Skeleton
import proofs.«167821_j5076651344326_1_alg».proof.Proof.Gen.Kernel.Launch
import proofs.«167821_j5076651344326_1_alg».proof.Proof.Gen.Kernel.Points
import proofs.«167821_j5076651344326_1_alg».proof.Proof.Gen.Kernel.Frame
import proofs.«167821_j5076651344326_1_alg».proof.Proof.Gen.KernelIdeal
import proofs.«167821_j5076651344326_1_alg».proof.Proof.Gen.KernelIdeal.Skeleton
import proofs.«167821_j5076651344326_1_alg».proof.Proof.Gen.KernelIdeal.Launch
import proofs.«167821_j5076651344326_1_alg».proof.Proof.Gen.KernelIdeal.Points
import proofs.«167821_j5076651344326_1_alg».proof.Proof.Gen.KernelIdeal.Frame
import proofs.«167821_j5076651344326_1_alg».proof.Proof.Gen.ReferenceIdeal
import proofs.«167821_j5076651344326_1_alg».proof.Proof.Gen.Pre_finite_inputs
import proofs.«167821_j5076651344326_1_alg».proof.Proof.Gen.KernelIdeal.Value
import proofs.«167821_j5076651344326_1_alg».proof.Proof.KernelValue
import proofs.«167821_j5076651344326_1_alg».proof.Proof.RefRead
import proofs.«167821_j5076651344326_1_alg».proof.Proof.RefRun
import Idealize.ShloMosaic.Adequacy
import Idealize.ShloMosaic.Init

noncomputable section

namespace Cert.Proof

open Idealize.ShloMosaic Idealize.SL.Sem

/-- The word-level kernel runs and leaves its argument unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its frame is its generated run with the result dropped. -/
theorem frame_ri : Cert.frame_ReferenceIdeal := fun m ρ _ =>
  (θ_run Cert.ReferenceIdeal.defs _ _).mono (fun _ h c => (h c).2) (Cert.Affinity.RefRun.run (F := Ideal) m ρ)

/-- The idealization rewrote no operation. -/
theorem preserves : Cert.preserves_Kernel_KernelIdeal := trivial

/-- From memories that agree on the argument both programs end with `G` of it. -/
theorem algebraic : Cert.algebraic_KernelIdeal_ReferenceIdeal := by
  intro m ρ m' ρ' _ hagree
  refine ⟨fun c => Cert.Affinity.G (Cert.Affinity.Kern.argX m c), Cert.Affinity.Kern.run m ρ, ?_⟩
  refine (θ_run Cert.ReferenceIdeal.defs _ _).mono (fun _ h c => ⟨(h c).1.trans ?_, (h c).2⟩)
    (Cert.Affinity.RefRun.run (F := Ideal) m' ρ')
  rw [Cert.Affinity.Ref.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
